-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x2048 : Shape := ⟨2, ![10000, 2048]⟩
abbrev S10000x128 : Shape := ⟨2, ![10000, 128]⟩
abbrev S_ : Shape := ⟨0, ![]⟩

class Facts : Prop where
  bcast_S_S10000x2048 : S_.BroadcastsInDim S10000x2048 (![] : Fin 0 → Fin S10000x2048.rank)
  reducesTo_S10000x2048_S_d0_1 : S10000x2048.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_

variable [Facts]

def fn {F : FTy → Type} [FloatOps F] (main_arg0 : FVec F S10000x2048 .f32) (main_arg1 : FVec F S10000x128 .f32) : IVec S_ 1 :=
  let main_v0 : FVec F S10000x2048 .f32 := Host.absf main_arg0
  let main_cst : FVec F S_ .f32 := constant S_ .f32 0x7F800000#32
  let main_v1 : FVec F S10000x2048 .f32 := broadcastInDim S10000x2048 ![] bcast_S_S10000x2048 main_cst
  let main_v2 : IVec S10000x2048 1 := cmpf .olt main_v0 main_v1
  let main_c : IVec S_ 1 := constantI S_ 1 1#1
  let main_v3 : IVec S_ 1 := (fun x v => Host.reduce IntOp.andi x v reducesTo_S10000x2048_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  main_v8
-- ==== Kernel.lean ====
abbrev S10000x2048 : Shape := ⟨2, ![10000, 2048]⟩
abbrev S10000x128 : Shape := ⟨2, ![10000, 128]⟩
abbrev S5000x256 : Shape := ⟨2, ![5000, 256]⟩
abbrev S256x128 : Shape := ⟨2, ![256, 128]⟩
abbrev S5000x128 : Shape := ⟨2, ![5000, 128]⟩

abbrev nBuf : Space → Nat
  | .hbm => 3
  | .vmem => 7
  | .smem => 0
  | _ => 0

abbrev bufTy : (tb : Table) → Fin (tcTables nBuf tb) → BufTy
  | .hbm, ⟨0, _⟩ => ⟨S10000x2048, .f32⟩
  | .hbm, ⟨1, _⟩ => ⟨S10000x128, .f32⟩
  | .hbm, ⟨2, _⟩ => ⟨S10000x128, .f32⟩
  | .local _ .vmem, ⟨0, _⟩ => ⟨S5000x256, .f32⟩
  | .local _ .vmem, ⟨1, _⟩ => ⟨S5000x256, .f32⟩
  | .local _ .vmem, ⟨2, _⟩ => ⟨S10000x128, .f32⟩
  | .local _ .vmem, ⟨3, _⟩ => ⟨S10000x128, .f32⟩
  | .local _ .vmem, ⟨4, _⟩ => ⟨S10000x128, .bf16⟩
  | .local _ .vmem, ⟨5, _⟩ => ⟨S5000x256, .bf16⟩
  | .local _ .vmem, ⟨6, _⟩ => ⟨S256x128, .f32⟩
  | _, _ => ⟨S10000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_5 : BitVec 32 := 0#32
  let v12 : BitVec 1 := Scalar.cmpi .ne v11 c0_i32_5
  v12

def k0_cond4 (i : grid0.Coords) : BitVec 1 :=
  let arg0 : BitVec 32 := BitVec.ofNat 32 (i 0).val
  let c7_i32 : BitVec 32 := 7#32
  let v13 : BitVec 1 := Scalar.cmpi .eq arg0 c7_i32
  let arg1 : BitVec 32 := BitVec.ofNat 32 (i 1).val
  let c1_i32_6 : BitVec 32 := 1#32
  let v14 : BitVec 1 := Scalar.cmpi .eq arg1 c1_i32_6
  let v15 : BitVec 1 := Scalar.andi v13 v14
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  packedbf16_S5000x256_S5000x256_0_0 : (Rect.unit (s := S5000x256) ![0, 0] S5000x256.size inb_S5000x256_S5000x256_0_0).PackedRows (EltTy.packing .bf16)
  inb_S10000x128_S5000x128_0_0 : ∀ a, (![0, 0] : Fin 2 → Nat) a + S5000x128.size a ≤ S10000x128.size a
  h_S5000x128 : 0 < S5000x128.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S10000x128_S5000x128_5000_0 : ∀ a, (![5000, 0] : Fin 2 → Nat) a + S5000x128.size a ≤ S10000x128.size a
  shapeCasts_S5000x128_S5000x128 : S5000x128.ShapeCasts S5000x128
  dot_S5000x256_S5000x128_S256x128_0_0_1_1_n_n_wf : DotDims.WF S5000x256 S5000x128 S256x128 [0] [0] [1] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S10000x2048.size a
  hwx0_0 : ∀ i : grid0.Coords, EltTy.bits .f32 = 32 ∨ (Rect.block (s := S10000x2048) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)

variable [Facts₀]

def dot_S5000x256_S5000x128_S256x128_0_0_1_1_n_n : DotDims S5000x256 S5000x128 S256x128 where
  lhsContracting := [0]
  rhsContracting := [0]
  lhsNonContracting := [1]
  rhsNonContracting := [1]
  lhsBatch := []
  rhsBatch := []
  wf := dot_S5000x256_S5000x128_S256x128_0_0_1_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond3 i == 1#1) && !(k0_cond4 i == 1#1) | ⟨_ + 3, h⟩ => absurd h (Nat.not_lt.2 (Nat.le_add_left _ _))

class Facts : Prop extends Facts₀ where

variable [Facts]
-- ==== ReferenceIdeal.lean ====
abbrev S10000x2048 : Shape := ⟨2, ![10000, 2048]⟩
abbrev S10000x128 : Shape := ⟨2, ![10000, 128]⟩
abbrev S2048x10000 : Shape := ⟨2, ![2048, 10000]⟩
abbrev S2048x128 : Shape := ⟨2, ![2048, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S10000x2048, .f32⟩
  | .hbm, ⟨1, _⟩ => ⟨S10000x128, .f32⟩
  | .hbm, ⟨2, _⟩ => ⟨S2048x10000, .f32⟩
  | .hbm, ⟨3, _⟩ => ⟨S2048x128, .f32⟩
  | .hbm, ⟨4, _⟩ => ⟨S_, .f32⟩
  | .hbm, ⟨5, _⟩ => ⟨S_, .f32⟩
  | .hbm, ⟨6, _⟩ => ⟨S2048x128, .f32⟩
  | .hbm, ⟨7, _⟩ => ⟨S2048x128, .i1⟩
  | .hbm, ⟨8, _⟩ => ⟨S_, .f32⟩
  | .hbm, ⟨9, _⟩ => ⟨S2048x128, .f32⟩
  | .hbm, ⟨10, _⟩ => ⟨S2048x128, .f32⟩
  | .hbm, ⟨11, _⟩ => ⟨S2048x128, .f32⟩
  | .hbm, ⟨12, _⟩ => ⟨S10000x128, .f32⟩
  | .hbm, ⟨13, _⟩ => ⟨S_, .f32⟩
  | .hbm, ⟨14, _⟩ => ⟨S_, .f32⟩
  | .hbm, ⟨15, _⟩ => ⟨S10000x128, .f32⟩
  | .hbm, ⟨16, _⟩ => ⟨S10000x128, .i1⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | _, _ => ⟨S10000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_call1_cst : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v4 : Ref sig .tc := ⟨.hbm, 20, rfl⟩

abbrev nD : Nat := 1
abbrev τ : Topo := Topo.v7x

variable {F : FTy → Type} [FloatOps F]

class Facts₀ : Prop where
  transposes_S10000x2048_S2048x10000_1_0 : S10000x2048.Transposes [1, 0] S2048x10000
  bcast_S_S2048x128 : S_.BroadcastsInDim S2048x128 (![] : Fin 0 → Fin S2048x128.rank)
  bcast_S_S10000x128 : S_.BroadcastsInDim S10000x128 (![] : Fin 0 → Fin S10000x128.rank)
  dot_S2048x10000_S10000x128_S2048x128_1_0_0_1_n_n_wf : DotDims.WF S2048x10000 S10000x128 S2048x128 [1] [0] [0] [1] [] []
  dot_S10000x2048_S2048x128_S10000x128_1_0_0_1_n_n_wf : DotDims.WF S10000x2048 S2048x128 S10000x128 [1] [0] [0] [1] [] []

variable [Facts₀]

def dot_S2048x10000_S10000x128_S2048x128_1_0_0_1_n_n : DotDims S2048x10000 S10000x128 S2048x128 where
  lhsContracting := [1]
  rhsContracting := [0]
  lhsNonContracting := [0]
  rhsNonContracting := [1]
  lhsBatch := []
  rhsBatch := []
  wf := dot_S2048x10000_S10000x128_S2048x128_1_0_0_1_n_n_wf
def dot_S10000x2048_S2048x128_S10000x128_1_0_0_1_n_n : DotDims S10000x2048 S2048x128 S10000x128 where
  lhsContracting := [1]
  rhsContracting := [0]
  lhsNonContracting := [0]
  rhsNonContracting := [1]
  lhsBatch := []
  rhsBatch := []
  wf := dot_S10000x2048_S2048x128_S10000x128_1_0_0_1_n_n_wf

class Facts : Prop extends Facts₀ where

variable [Facts]
-- ==== Proof.KSchedule.lean ====
/-
  The grid of the kernel is 8 column blocks (axis 0, index k) by 2 row halves (axis 1, index r), walked in
  order: point t = 2k + r. Four branches of the body are guarded by the coordinates:
    the first (k = 0 and r = 0) stores the cast of E and zeroes the accumulated result;
    the second (r = 0) keeps the upper half block of A and its partial product with the upper half of E;
    the third (r = 1) completes the hidden block, rectifies it and adds both halves' products to the result;
    the fourth (k = 7 and r = 1) rectifies the result.
  So the points fall into four kinds: the first point; the later points with r = 0; the points with r = 1 before
  the last; the last point. This module decides the guards over the grid, says where the result's window is
  left untouched and where it is written back, and names the buffers the body works on.
-/
import proofs.«120358_g26250840113511_retrytranche2_1766_24_alg».proof.Proof.Gen.Kernel.Frame
import proofs.«120358_g26250840113511_retrytranche2_1766_24_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The guards, decided over the grid -/

/-- k = 0 and r = 0. -/
abbrev cFirst (i : grid0.Coords) : Prop := k0_cond1 i = 1#1
/-- r = 0. -/
abbrev cUpper (i : grid0.Coords) : Prop := (Scalar.cmpi .ne (Scalar.extui (Scalar.cmpi .eq (BitVec.ofNat 32 (i 1).val) 0#32)) 0#32) = 1#1
/-- r = 1. -/
abbrev cLower (i : grid0.Coords) : Prop := k0_cond3 i = 1#1
/-- k = 7 and r = 1. -/
abbrev cLast (i : grid0.Coords) : Prop := k0_cond4 i = 1#1

theorem hFirst : ∀ t : Fin cfg0.N, cFirst (grid0.coords t) ↔ t.val % 16 = 0 :=
  (by decide +kernel : ∀ t : Fin grid0.N, cFirst (grid0.coords t) ↔ t.val % 16 = 0)
theorem hUpper : ∀ t : Fin cfg0.N, cUpper (grid0.coords t) ↔ t.val % 2 = 0 :=
  (by decide +kernel : ∀ t : Fin grid0.N, cUpper (grid0.coords t) ↔ t.val % 2 = 0)
theorem hLower : ∀ t : Fin cfg0.N, cLower (grid0.coords t) ↔ t.val % 2 = 1 :=
  (by decide +kernel : ∀ t : Fin grid0.N, cLower (grid0.coords t) ↔ t.val % 2 = 1)
theorem hLast : ∀ t : Fin cfg0.N, cLast (grid0.coords t) ↔ t.val % 16 = 15 :=
  (by decide +kernel : ∀ t : Fin grid0.N, cLast (grid0.coords t) ↔ t.val % 16 = 15)

/-! ## Where the result's window is untouched, and where it is written back -/

theorem live0 : ∀ t : Fin cfg0.N, cfg0.idle 0 (grid0.coords t) = false := by decide +kernel
theorem live1 : ∀ t : Fin cfg0.N, cfg0.idle 1 (grid0.coords t) = false := by decide +kernel
/-- The result's window is untouched exactly at the later points with r = 0. -/
theorem idle2_iff : ∀ t : Fin cfg0.N, cfg0.idle 2 (grid0.coords t) = true ↔ (t.val % 2 = 0 ∧ t.val % 16 ≠ 0) := by decide +kernel
theorem idle2_false_iff : ∀ t : Fin cfg0.N, cfg0.idle 2 (grid0.coords t) = false ↔ (t.val % 2 = 1 ∨ t.val % 16 = 0) := by decide +kernel
/-- It is written back after the last point only. -/
theorem flush2_false : ∀ t : Fin cfg0.N, t.val % 16 ≠ 15 → (cfg0.win 2).flush t = false := by decide +kernel
theorem fetch2_false : ∀ t : Fin cfg0.N, (cfg0.win 2).fetch t = false := by decide +kernel
theorem clip2_none : ∀ (i : cfg0.grid.Coords) a, (cfg0.win 2).clip i a = none := by decide +kernel

/-! ## The buffers the body works on -/

/-- Each window's current staging buffer at point t. -/
abbrev ms0 (t : Fin cfg0.N) : Memref sig .tc .vmem S5000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hs2 (t : Fin cfg0.N) : (ms2 t).IsWhole := hstage0_2 ((cfg0.slots t 2).cast nbuf0_2)
/-- The three buffers the kernel keeps between points: the cast of E, the cast of the upper half block of A,
    and the upper half's partial product. -/
abbrev scE : Memref sig .tc .vmem S10000x128 .bf16 := Memref.whole cc0_scratch0
abbrev scA : Memref sig .tc .vmem S5000x256 .bf16 := Memref.whole cc0_scratch1
abbrev scP : Memref sig .tc .vmem S256x128 .f32 := Memref.whole cc0_scratch2
/-- Views through which their contents, and the result buffer's, are stated. -/
abbrev vE : View sig .tc .vmem S10000x128 .bf16 := scE.view
abbrev vA : View sig .tc .vmem S5000x256 .bf16 := scA.view
abbrev vP : View sig .tc .vmem S256x128 .f32 := scP.view
abbrev vO : View sig .tc .vmem S10000x128 .f32 := (Memref.whole cc0_stg2_0 : Memref sig .tc .vmem S10000x128 .f32).view

/-- Before the first point the three kept buffers hold anything. -/
theorem PhiA_eq (c : Dev nD) :
    (Pipeline.ΦA spec0 c : sProp 𝕄)
      = iprop(iprop((∃ d, owns (c : Thread nD τ) scE fullShare d) ∗ (∃ d, owns (c : Thread nD τ) scA fullShare d) ∗ (∃ d, owns (c : Thread nD τ) scP fullShare d)) ∗ (∃ r, prngReg c r)) := by
  unfold Pipeline.ΦA; rw [scopedRest0_eq]; simp only [scE, scA, scP, owns_whole]; try rfl

end Cert.Kernel.Body

end
-- ==== Proof.KStepFirst.lean ====
/-
  The body at the first grid point (k = 0, r = 0). Handed the first block of A's upper half and all of E, with the
  result's buffer and the three kept buffers at anything, it stores the cast of E, zeroes the result, keeps the cast
  of the block and stores the block's product with the upper half of E. What each buffer ends with is found by
  running the body.
-/
import proofs.«120358_g26250840113511_retrytranche2_1766_24_alg».proof.Proof.KSchedule

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at the first point: what its stores leave in the result's buffer and in the three kept buffers. -/
noncomputable def runFirst (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : cFirst i) (hc1 : cUpper i) (hc2 : ¬cLower i) (hc3 : ¬cLast i)
    (x0 : Vec F S5000x256 .f32) (x1 : Vec F S10000x128 .f32) :
    Σ' (LO : List (View.Piece (Elt F) S10000x128 .f32)) (LE : List (View.Piece (Elt F) S10000x128 .bf16)) (LA : List (View.Piece (Elt F) S5000x256 .bf16)), { LP : List (View.Piece (Elt F) S256x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LE) ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LP)) -∗ K ⟨⟩))
          ⊢ wp frame (wpE (defs₀ (F := F)) Variants.none c none) E (cc0__body i arg2 harg2 arg3 harg3 arg4 harg4 arg5 harg5 arg6 harg6 arg7 harg7) K } := by
  refine ⟨?_, ?_, ?_, ?_, fun E K => ?run⟩
  case run =>
    simp only [cc0__body_eq_skeleton]; unfold cc0__body_skel
    unfold owns
    iintro ⟨⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg2.eq_unread hf2; obtain rfl := harg3.eq_unread hf3
    sl_exec (disch := first | exact hc0 | exact hc1 | exact hc2 | exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    iexists _; iexact H7

end Cert.Kernel.Body

end
-- ==== Proof.KStepUpper.lean ====
/-
  The body at a later grid point with r = 0 (the upper half of column block k, k > 0). Handed the block of A and all
  of E, the result's buffer at whatever it holds (it is not touched), the cast of E as kept, and the other two kept
  buffers at anything, it keeps the cast of the block and stores the block's product with the upper half of the kept
  cast of E. What the two rewritten buffers end with is found by running the body.
-/
import proofs.«120358_g26250840113511_retrytranche2_1766_24_alg».proof.Proof.KSchedule

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a later point with r = 0: the result's buffer and the kept cast of E are handed back as found; what its stores leave in the other two kept buffers. -/
noncomputable def runUpper (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : cUpper i) (hc2 : ¬cLower i) (hc3 : ¬cLast i)
    (x0 : Vec F S5000x256 .f32) (x1 : Vec F S10000x128 .f32) (xe : Vec F S10000x128 .bf16) :
    Σ' (LA : List (View.Piece (Elt F) S5000x256 .bf16)), { LP : List (View.Piece (Elt F) S256x128 .f32) //
      ∀ (xi : Vec F S10000x128 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xe ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi ∗ owns (c : Thread nD τ) arg5 fullShare xe ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LP)) -∗ K ⟨⟩))
          ⊢ wp frame (wpE (defs₀ (F := F)) Variants.none c none) E (cc0__body i arg2 harg2 arg3 harg3 arg4 harg4 arg5 harg5 arg6 harg6 arg7 harg7) K } := by
  refine ⟨?_, ?_, fun xi E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf2; obtain rfl := harg3.eq_unread hf3; obtain rfl := harg4.eq_unread hf4; obtain rfl := harg5.eq_unread hf5
    sl_exec (disch := first | exact hc0 | exact hc1 | exact hc2 | exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

end Cert.Kernel.Body

end
-- ==== Proof.KStepLower.lean ====
/-
  The body at a grid point with r = 1 that is not the last (the lower half of column block k, k < 7). Handed the
  block of A, the result's buffer at what the points before accumulated, and the three kept buffers as kept, it
  completes the hidden block, rectifies it, and adds the upper half's product to the result's upper rows and the lower
  half's to its lower rows. What the result's buffer ends with is found by running the body; the kept buffers are
  handed back as found.
-/
import proofs.«120358_g26250840113511_retrytranche2_1766_24_alg».proof.Proof.KSchedule

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point with r = 1 before the last: what its two stores leave in the result's buffer. -/
noncomputable def runLower (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : ¬cUpper i) (hc2 : cLower i) (hc3 : ¬cLast i)
    (x0 : Vec F S5000x256 .f32) (x1 : Vec F S10000x128 .f32) (xo : Vec F S10000x128 .f32) (xe : Vec F S10000x128 .bf16) (xa : Vec F S5000x256 .bf16) (xp : Vec F S256x128 .f32) :
    { LO : List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xe ∗ owns (c : Thread nD τ) arg6 fullShare xa ∗ owns (c : Thread nD τ) arg7 fullShare xp
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ owns (c : Thread nD τ) arg5 fullShare xe ∗ owns (c : Thread nD τ) arg6 fullShare xa ∗ owns (c : Thread nD τ) arg7 fullShare xp) -∗ K ⟨⟩))
          ⊢ wp frame (wpE (defs₀ (F := F)) Variants.none c none) E (cc0__body i arg2 harg2 arg3 harg3 arg4 harg4 arg5 harg5 arg6 harg6 arg7 harg7) K } := by
  refine ⟨?_, fun E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | exact hc0 | exact hc1 | exact hc2 | exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7

end Cert.Kernel.Body

end
-- ==== Proof.KStepLast.lean ====
/-
  The body at the last grid point (k = 7, r = 1): as at the other points with r = 1, and then the whole accumulated
  result is rectified in place. What the result's buffer ends with is found by running the body; the kept buffers
  are handed back as found.
-/
import proofs.«120358_g26250840113511_retrytranche2_1766_24_alg».proof.Proof.KSchedule

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at the last point: what its three stores leave in the result's buffer. -/
noncomputable def runLast (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : ¬cUpper i) (hc2 : cLower i) (hc3 : cLast i)
    (x0 : Vec F S5000x256 .f32) (x1 : Vec F S10000x128 .f32) (xo : Vec F S10000x128 .f32) (xe : Vec F S10000x128 .bf16) (xa : Vec F S5000x256 .bf16) (xp : Vec F S256x128 .f32) :
    { LO : List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xe ∗ owns (c : Thread nD τ) arg6 fullShare xa ∗ owns (c : Thread nD τ) arg7 fullShare xp
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ owns (c : Thread nD τ) arg5 fullShare xe ∗ owns (c : Thread nD τ) arg6 fullShare xa ∗ owns (c : Thread nD τ) arg7 fullShare xp) -∗ K ⟨⟩))
          ⊢ wp frame (wpE (defs₀ (F := F)) Variants.none c none) E (cc0__body i arg2 harg2 arg3 harg3 arg4 harg4 arg5 harg5 arg6 harg6 arg7 harg7) K } := by
  refine ⟨?_, fun E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | exact hc0 | exact hc1 | exact hc2 | exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7

end Cert.Kernel.Body

end
-- ==== Proof.KCarried.lean ====
/-
  What the buffers hold from point to point.  After each grid point four buffers matter: the result's buffer and the
  three the kernel keeps (the cast of E, the cast of the upper half block of A, the upper half's partial product).
  The first point fills all four; a later point with r = 0 rewrites the last two and leaves the other two alone; a
  point with r = 1 rewrites the result's buffer from all four and leaves the kept ones alone.  This module names
  what each kind of point leaves, threads it through the sixteen points, and proves that the body, run at any
  point from what the point before left, leaves exactly that: so every execution of the program terminates with
  the result array holding what the last point left and the argument arrays unchanged.
-/
import proofs.«120358_g26250840113511_retrytranche2_1766_24_alg».proof.Proof.KStepFirst
import proofs.«120358_g26250840113511_retrytranche2_1766_24_alg».proof.Proof.KStepUpper
import proofs.«120358_g26250840113511_retrytranche2_1766_24_alg».proof.Proof.KStepLower
import proofs.«120358_g26250840113511_retrytranche2_1766_24_alg».proof.Proof.KStepLast
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each kind of point leaves in each buffer -/

/-- The result's buffer after the first point. -/
def firstO (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : cFirst i) (hc1 : cUpper i) (hc2 : ¬cLower i) (hc3 : ¬cLast i)
    (x0 : Vec F S5000x256 .f32) (x1 : Vec F S10000x128 .f32) : Vec F S10000x128 .f32 :=
  vO.read (Elt F) (vO.writes (Elt F) vO.junk (runFirst c i arg2 harg2 arg3 harg3 arg4 harg4 arg5 harg5 arg6 harg6 arg7 harg7 hc0 hc1 hc2 hc3 x0 x1).1)

theorem firstO_cover (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : cFirst i) (hc1 : cUpper i) (hc2 : ¬cLower i) (hc3 : ¬cLast i)
    (x0 : Vec F S5000x256 .f32) (x1 : Vec F S10000x128 .f32) (y : S10000x128.Idx) :
    ∃ pc ∈ (runFirst c i arg2 harg2 arg3 harg3 arg4 harg4 arg5 harg5 arg6 harg6 arg7 harg7 hc0 hc1 hc2 hc3 x0 x1).1, y ∈ pc.1.set :=
  View.cover_of_tiledL _ S10000x128.size (by sl_kernel_rfl) y
/-- The kept cast of E after the first point. -/
def firstE (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : cFirst i) (hc1 : cUpper i) (hc2 : ¬cLower i) (hc3 : ¬cLast i)
    (x0 : Vec F S5000x256 .f32) (x1 : Vec F S10000x128 .f32) : Vec F S10000x128 .bf16 :=
  vE.read (Elt F) (vE.writes (Elt F) vE.junk (runFirst c i arg2 harg2 arg3 harg3 arg4 harg4 arg5 harg5 arg6 harg6 arg7 harg7 hc0 hc1 hc2 hc3 x0 x1).2.1)

theorem firstE_cover (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : cFirst i) (hc1 : cUpper i) (hc2 : ¬cLower i) (hc3 : ¬cLast i)
    (x0 : Vec F S5000x256 .f32) (x1 : Vec F S10000x128 .f32) (y : S10000x128.Idx) :
    ∃ pc ∈ (runFirst c i arg2 harg2 arg3 harg3 arg4 harg4 arg5 harg5 arg6 harg6 arg7 harg7 hc0 hc1 hc2 hc3 x0 x1).2.1, y ∈ pc.1.set :=
  View.cover_of_tiledL _ S10000x128.size (by sl_kernel_rfl) y
/-- The kept cast of the upper half block after the first point. -/
def firstA (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : cFirst i) (hc1 : cUpper i) (hc2 : ¬cLower i) (hc3 : ¬cLast i)
    (x0 : Vec F S5000x256 .f32) (x1 : Vec F S10000x128 .f32) : Vec F S5000x256 .bf16 :=
  vA.read (Elt F) (vA.writes (Elt F) vA.junk (runFirst c i arg2 harg2 arg3 harg3 arg4 harg4 arg5 harg5 arg6 harg6 arg7 harg7 hc0 hc1 hc2 hc3 x0 x1).2.2.1)

theorem firstA_cover (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : cFirst i) (hc1 : cUpper i) (hc2 : ¬cLower i) (hc3 : ¬cLast i)
    (x0 : Vec F S5000x256 .f32) (x1 : Vec F S10000x128 .f32) (y : S5000x256.Idx) :
    ∃ pc ∈ (runFirst c i arg2 harg2 arg3 harg3 arg4 harg4 arg5 harg5 arg6 harg6 arg7 harg7 hc0 hc1 hc2 hc3 x0 x1).2.2.1, y ∈ pc.1.set :=
  View.cover_of_tiledL _ S5000x256.size (by sl_kernel_rfl) y
/-- The kept partial product after the first point. -/
def firstP (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : cFirst i) (hc1 : cUpper i) (hc2 : ¬cLower i) (hc3 : ¬cLast i)
    (x0 : Vec F S5000x256 .f32) (x1 : Vec F S10000x128 .f32) : Vec F S256x128 .f32 :=
  vP.read (Elt F) (vP.writes (Elt F) vP.junk (runFirst c i arg2 harg2 arg3 harg3 arg4 harg4 arg5 harg5 arg6 harg6 arg7 harg7 hc0 hc1 hc2 hc3 x0 x1).2.2.2.1)

theorem firstP_cover (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : cFirst i) (hc1 : cUpper i) (hc2 : ¬cLower i) (hc3 : ¬cLast i)
    (x0 : Vec F S5000x256 .f32) (x1 : Vec F S10000x128 .f32) (y : S256x128.Idx) :
    ∃ pc ∈ (runFirst c i arg2 harg2 arg3 harg3 arg4 harg4 arg5 harg5 arg6 harg6 arg7 harg7 hc0 hc1 hc2 hc3 x0 x1).2.2.2.1, y ∈ pc.1.set :=
  View.cover_of_tiledL _ S256x128.size (by sl_kernel_rfl) y
/-- The kept cast of the upper half block after a later point with r = 0. -/
def upperA (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : cUpper i) (hc2 : ¬cLower i) (hc3 : ¬cLast i)
    (x0 : Vec F S5000x256 .f32) (x1 : Vec F S10000x128 .f32) (xe : Vec F S10000x128 .bf16) : Vec F S5000x256 .bf16 :=
  vA.read (Elt F) (vA.writes (Elt F) vA.junk (runUpper c i arg2 harg2 arg3 harg3 arg4 harg4 arg5 harg5 arg6 harg6 arg7 harg7 hc0 hc1 hc2 hc3 x0 x1 xe).1)

theorem upperA_cover (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : cUpper i) (hc2 : ¬cLower i) (hc3 : ¬cLast i)
    (x0 : Vec F S5000x256 .f32) (x1 : Vec F S10000x128 .f32) (xe : Vec F S10000x128 .bf16) (y : S5000x256.Idx) :
    ∃ pc ∈ (runUpper c i arg2 harg2 arg3 harg3 arg4 harg4 arg5 harg5 arg6 harg6 arg7 harg7 hc0 hc1 hc2 hc3 x0 x1 xe).1, y ∈ pc.1.set :=
  View.cover_of_tiledL _ S5000x256.size (by sl_kernel_rfl) y
/-- The kept partial product after a later point with r = 0. -/
def upperP (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : cUpper i) (hc2 : ¬cLower i) (hc3 : ¬cLast i)
    (x0 : Vec F S5000x256 .f32) (x1 : Vec F S10000x128 .f32) (xe : Vec F S10000x128 .bf16) : Vec F S256x128 .f32 :=
  vP.read (Elt F) (vP.writes (Elt F) vP.junk (runUpper c i arg2 harg2 arg3 harg3 arg4 harg4 arg5 harg5 arg6 harg6 arg7 harg7 hc0 hc1 hc2 hc3 x0 x1 xe).2.1)

theorem upperP_cover (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : cUpper i) (hc2 : ¬cLower i) (hc3 : ¬cLast i)
    (x0 : Vec F S5000x256 .f32) (x1 : Vec F S10000x128 .f32) (xe : Vec F S10000x128 .bf16) (y : S256x128.Idx) :
    ∃ pc ∈ (runUpper c i arg2 harg2 arg3 harg3 arg4 harg4 arg5 harg5 arg6 harg6 arg7 harg7 hc0 hc1 hc2 hc3 x0 x1 xe).2.1, y ∈ pc.1.set :=
  View.cover_of_tiledL _ S256x128.size (by sl_kernel_rfl) y
/-- The result's buffer after a point with r = 1 that is not the last. -/
def lowerO (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : ¬cUpper i) (hc2 : cLower i) (hc3 : ¬cLast i)
    (x0 : Vec F S5000x256 .f32) (x1 : Vec F S10000x128 .f32) (xo : Vec F S10000x128 .f32) (xe : Vec F S10000x128 .bf16) (xa : Vec F S5000x256 .bf16) (xp : Vec F S256x128 .f32) : Vec F S10000x128 .f32 :=
  vO.read (Elt F) (vO.writes (Elt F) vO.junk (runLower c i arg2 harg2 arg3 harg3 arg4 harg4 arg5 harg5 arg6 harg6 arg7 harg7 hc0 hc1 hc2 hc3 x0 x1 xo xe xa xp).1)

theorem lowerO_cover (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : ¬cUpper i) (hc2 : cLower i) (hc3 : ¬cLast i)
    (x0 : Vec F S5000x256 .f32) (x1 : Vec F S10000x128 .f32) (xo : Vec F S10000x128 .f32) (xe : Vec F S10000x128 .bf16) (xa : Vec F S5000x256 .bf16) (xp : Vec F S256x128 .f32) (y : S10000x128.Idx) :
    ∃ pc ∈ (runLower c i arg2 harg2 arg3 harg3 arg4 harg4 arg5 harg5 arg6 harg6 arg7 harg7 hc0 hc1 hc2 hc3 x0 x1 xo xe xa xp).1, y ∈ pc.1.set :=
  View.cover_of_tiledL (s := S10000x128) _ ![5000, 128] (by sl_kernel_rfl) y
/-- The result's buffer after the last point. -/
def lastO (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : ¬cUpper i) (hc2 : cLower i) (hc3 : cLast i)
    (x0 : Vec F S5000x256 .f32) (x1 : Vec F S10000x128 .f32) (xo : Vec F S10000x128 .f32) (xe : Vec F S10000x128 .bf16) (xa : Vec F S5000x256 .bf16) (xp : Vec F S256x128 .f32) : Vec F S10000x128 .f32 :=
  vO.read (Elt F) (vO.writes (Elt F) vO.junk (runLast c i arg2 harg2 arg3 harg3 arg4 harg4 arg5 harg5 arg6 harg6 arg7 harg7 hc0 hc1 hc2 hc3 x0 x1 xo xe xa xp).1)

/-- The last point's final store covers the whole buffer. -/
theorem lastO_cover (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : ¬cUpper i) (hc2 : cLower i) (hc3 : cLast i)
    (x0 : Vec F S5000x256 .f32) (x1 : Vec F S10000x128 .f32) (xo : Vec F S10000x128 .f32) (xe : Vec F S10000x128 .bf16) (xa : Vec F S5000x256 .bf16) (xp : Vec F S256x128 .f32) (y : S10000x128.Idx) :
    ∃ pc ∈ (runLast c i arg2 harg2 arg3 harg3 arg4 harg4 arg5 harg5 arg6 harg6 arg7 harg7 hc0 hc1 hc2 hc3 x0 x1 xo xe xa xp).1, y ∈ pc.1.set :=
  View.cover_of_wholeMem _ (by sl_whole_mem) y

/-! ## The four kinds of point -/

theorem lt16 (t : Fin cfg0.N) : t.val < 16 := lt_of_lt_of_eq t.isLt (show cfg0.N = 16 from N_0)
theorem pred_lt (t : Fin cfg0.N) : t.val - 1 < cfg0.N := Nat.lt_of_le_of_lt (Nat.sub_le _ _) t.isLt

theorem kFirst (t : Fin cfg0.N) (hz : t.val = 0) :
    cFirst (grid0.coords t) ∧ cUpper (grid0.coords t) ∧ ¬cLower (grid0.coords t) ∧ ¬cLast (grid0.coords t) :=
  ⟨(hFirst t).mpr (by omega), (hUpper t).mpr (by omega), fun h => by have := (hLower t).mp h; omega, fun h => by have := (hLast t).mp h; omega⟩
theorem kUpper (t : Fin cfg0.N) (hz : t.val ≠ 0) (h1 : t.val % 2 = 0) :
    ¬cFirst (grid0.coords t) ∧ cUpper (grid0.coords t) ∧ ¬cLower (grid0.coords t) ∧ ¬cLast (grid0.coords t) :=
  ⟨fun h => by have := (hFirst t).mp h; have := lt16 t; omega, (hUpper t).mpr h1, fun h => by have := (hLower t).mp h; omega, fun h => by have := (hLast t).mp h; omega⟩
theorem kLower (t : Fin cfg0.N) (h1 : t.val % 2 = 1) (h3 : t.val % 16 ≠ 15) :
    ¬cFirst (grid0.coords t) ∧ ¬cUpper (grid0.coords t) ∧ cLower (grid0.coords t) ∧ ¬cLast (grid0.coords t) :=
  ⟨fun h => by have := (hFirst t).mp h; omega, fun h => by have := (hUpper t).mp h; omega, (hLower t).mpr h1, fun h => h3 ((hLast t).mp h)⟩
theorem kLast (t : Fin cfg0.N) (h3 : t.val % 16 = 15) :
    ¬cFirst (grid0.coords t) ∧ ¬cUpper (grid0.coords t) ∧ cLower (grid0.coords t) ∧ cLast (grid0.coords t) :=
  ⟨fun h => by have := (hFirst t).mp h; omega, fun h => by have := (hUpper t).mp h; omega, (hLower t).mpr (by omega), (hLast t).mpr h3⟩

variable (m : (ℓ : Loc nD τ sig) → Buf (Elt F) ℓ) (ρ : Dev nD → PrngReg)

/-! ## From point to point -/

/-- What matters after a point: the result's buffer, the cast of E, the cast of the upper half block of A, and the
    upper half's partial product. -/
abbrev St (F : FTy → Type) [FloatOps F] : Type :=
  Vec F S10000x128 .f32 × Vec F S10000x128 .bf16 × Vec F S5000x256 .bf16 × Vec F S256x128 .f32

/-- The first point fills all four from its two blocks. -/
def stepFirst (c : Dev nD) (t : Fin cfg0.N) (hz : t.val = 0) : St F :=
  (firstO c (grid0.coords t) (ms0 t) (hs0 t) (ms1 t) (hs1 t) (ms2 t) (hs2 t) scE (Memref.isWhole_whole _) scA (Memref.isWhole_whole _) scP (Memref.isWhole_whole _) (kFirst t hz).1 (kFirst t hz).2.1 (kFirst t hz).2.2.1 (kFirst t hz).2.2.2 (iblk m c 0 t) (iblk m c 1 t),
   firstE c (grid0.coords t) (ms0 t) (hs0 t) (ms1 t) (hs1 t) (ms2 t) (hs2 t) scE (Memref.isWhole_whole _) scA (Memref.isWhole_whole _) scP (Memref.isWhole_whole _) (kFirst t hz).1 (kFirst t hz).2.1 (kFirst t hz).2.2.1 (kFirst t hz).2.2.2 (iblk m c 0 t) (iblk m c 1 t),
   firstA c (grid0.coords t) (ms0 t) (hs0 t) (ms1 t) (hs1 t) (ms2 t) (hs2 t) scE (Memref.isWhole_whole _) scA (Memref.isWhole_whole _) scP (Memref.isWhole_whole _) (kFirst t hz).1 (kFirst t hz).2.1 (kFirst t hz).2.2.1 (kFirst t hz).2.2.2 (iblk m c 0 t) (iblk m c 1 t),
   firstP c (grid0.coords t) (ms0 t) (hs0 t) (ms1 t) (hs1 t) (ms2 t) (hs2 t) scE (Memref.isWhole_whole _) scA (Memref.isWhole_whole _) scP (Memref.isWhole_whole _) (kFirst t hz).1 (kFirst t hz).2.1 (kFirst t hz).2.2.1 (kFirst t hz).2.2.2 (iblk m c 0 t) (iblk m c 1 t))

/-- A later point with r = 0 rewrites the last two from its block and the kept cast of E. -/
def stepUpper (c : Dev nD) (t : Fin cfg0.N) (hz : t.val ≠ 0) (h1 : t.val % 2 = 0) (s : St F) : St F :=
  (s.1, s.2.1,
   upperA c (grid0.coords t) (ms0 t) (hs0 t) (ms1 t) (hs1 t) (ms2 t) (hs2 t) scE (Memref.isWhole_whole _) scA (Memref.isWhole_whole _) scP (Memref.isWhole_whole _) (kUpper t hz h1).1 (kUpper t hz h1).2.1 (kUpper t hz h1).2.2.1 (kUpper t hz h1).2.2.2 (iblk m c 0 t) (iblk m c 1 t) s.2.1,
   upperP c (grid0.coords t) (ms0 t) (hs0 t) (ms1 t) (hs1 t) (ms2 t) (hs2 t) scE (Memref.isWhole_whole _) scA (Memref.isWhole_whole _) scP (Memref.isWhole_whole _) (kUpper t hz h1).1 (kUpper t hz h1).2.1 (kUpper t hz h1).2.2.1 (kUpper t hz h1).2.2.2 (iblk m c 0 t) (iblk m c 1 t) s.2.1)

/-- A point with r = 1 before the last rewrites the result's buffer from its block and all four. -/
def stepLower (c : Dev nD) (t : Fin cfg0.N) (h1 : t.val % 2 = 1) (h3 : t.val % 16 ≠ 15) (s : St F) : St F :=
  (lowerO c (grid0.coords t) (ms0 t) (hs0 t) (ms1 t) (hs1 t) (ms2 t) (hs2 t) scE (Memref.isWhole_whole _) scA (Memref.isWhole_whole _) scP (Memref.isWhole_whole _) (kLower t h1 h3).1 (kLower t h1 h3).2.1 (kLower t h1 h3).2.2.1 (kLower t h1 h3).2.2.2 (iblk m c 0 t) (iblk m c 1 t) s.1 s.2.1 s.2.2.1 s.2.2.2,
   s.2.1, s.2.2.1, s.2.2.2)

/-- So does the last point, and rectifies it. -/
def stepLast (c : Dev nD) (t : Fin cfg0.N) (h3 : t.val % 16 = 15) (s : St F) : St F :=
  (lastO c (grid0.coords t) (ms0 t) (hs0 t) (ms1 t) (hs1 t) (ms2 t) (hs2 t) scE (Memref.isWhole_whole _) scA (Memref.isWhole_whole _) scP (Memref.isWhole_whole _) (kLast t h3).1 (kLast t h3).2.1 (kLast t h3).2.2.1 (kLast t h3).2.2.2 (iblk m c 0 t) (iblk m c 1 t) s.1 s.2.1 s.2.2.1 s.2.2.2,
   s.2.1, s.2.2.1, s.2.2.2)

/-- What the four buffers hold after the point at position n. -/
def stAt (c : Dev nD) : (n : ℕ) → n < cfg0.N → St F
  | 0, hn => stepFirst m c ⟨0, hn⟩ rfl
  | n + 1, hn =>
    if h1 : (n + 1) % 2 = 0 then stepUpper m c ⟨n + 1, hn⟩ (Nat.succ_ne_zero n) h1 (stAt c n (Nat.lt_of_succ_lt hn))
    else if h3 : (n + 1) % 16 = 15 then stepLast m c ⟨n + 1, hn⟩ h3 (stAt c n (Nat.lt_of_succ_lt hn))
    else stepLower m c ⟨n + 1, hn⟩ (by show (n + 1) % 2 = 1; omega) h3 (stAt c n (Nat.lt_of_succ_lt hn))

theorem stAt_first (c : Dev nD) (t : Fin cfg0.N) (hz : t.val = 0) : stAt m c t.val t.isLt = stepFirst m c t hz := by
  obtain ⟨n, hn⟩ := t
  cases n with
  | zero => rfl
  | succ n => exact absurd hz (Nat.succ_ne_zero n)

theorem stAt_upper (c : Dev nD) (t : Fin cfg0.N) (hz : t.val ≠ 0) (h1 : t.val % 2 = 0) :
    stAt m c t.val t.isLt = stepUpper m c t hz h1 (stAt m c (t.val - 1) (pred_lt t)) := by
  obtain ⟨n, hn⟩ := t
  cases n with
  | zero => exact absurd rfl hz
  | succ n => exact (dif_pos h1).trans rfl

theorem stAt_lower (c : Dev nD) (t : Fin cfg0.N) (h1 : t.val % 2 = 1) (h3 : t.val % 16 ≠ 15) :
    stAt m c t.val t.isLt = stepLower m c t h1 h3 (stAt m c (t.val - 1) (pred_lt t)) := by
  obtain ⟨n, hn⟩ := t
  cases n with
  | zero => exfalso; dsimp only at h1; omega
  | succ n => exact (dif_neg (by dsimp only at h1; omega)).trans ((dif_neg h3).trans rfl)

theorem stAt_last (c : Dev nD) (t : Fin cfg0.N) (h3 : t.val % 16 = 15) :
    stAt m c t.val t.isLt = stepLast m c t h3 (stAt m c (t.val - 1) (pred_lt t)) := by
  obtain ⟨n, hn⟩ := t
  cases n with
  | zero => exfalso; dsimp only at h3; omega
  | succ n => exact (dif_neg (by dsimp only at h3; omega)).trans ((dif_pos h3).trans rfl)

/-- What the kernel holds in its three kept buffers before position n: anything before the first point, then what
    the point before left. -/
def PhiS (c : Dev nD) : (n : ℕ) → n ≤ cfg0.N → sProp 𝕄
  | 0, _ => Pipeline.ΦA spec0 c
  | n + 1, hn => iprop(iprop(owns (c : Thread nD τ) scE fullShare ((stAt m c n hn).2.1) ∗ owns (c : Thread nD τ) scA fullShare ((stAt m c n hn).2.2.1) ∗ owns (c : Thread nD τ) scP fullShare ((stAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scE fullShare ((stAt m c n hn).2.1) ∗ owns (c : Thread nD τ) scA fullShare ((stAt m c n hn).2.2.1) ∗ owns (c : Thread nD τ) scP fullShare ((stAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) scE fullShare ((stAt m c (n - 1) (by omega)).2.1) ∗ owns (c : Thread nD τ) scA fullShare ((stAt m c (n - 1) (by omega)).2.2.1) ∗ owns (c : Thread nD τ) scP fullShare ((stAt m c (n - 1) (by omega)).2.2.2)) ∗ (∃ r, prngReg c r)) := by
  cases n with
  | zero => exact absurd rfl hz
  | succ n => rfl

/-! ## The data of the run -/

/-- The arrays as the region finds them; after the body at point t each input's buffer at its block and the
    result's at what the point leaves; between points the three kept buffers at what the point before left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (stAt m c t.val t.isLt).1 := by dsimp only [dats]

/-- Each input's current buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The result's buffer holds anything at the first point; -/
theorem before2_zero (c : Dev nD) (t : Fin cfg0.N) (hz : t.val = 0) (d) : (dats m 0 c).before 2 t d = d :=
  (dats m 0 c).before_out_reset 2 rfl t (.inl hz) d

/-- what a point leaves there is what the next finds when nothing is written back in between; -/
theorem kept2 (c : Dev nD) (t : Fin cfg0.N) (d) : (dats m 0 c).kept 2 t d = (stAt m c t.val t.isLt).1 := by
  unfold Dat.kept
  rw [Pipeline.fill_of_clip_none (cfg := cfg0) 2 _ (clip2_none _) d ((dats m 0 c).after 2 t), Pipeline.Window.fill_cut, after2]

/-- so at every later point it holds what the point before left (through a point that leaves it untouched: what
    the point before that left, which that point's state repeats). -/
theorem before2_pos (c : Dev nD) (t : Fin cfg0.N) (hz : t.val ≠ 0) (d) :
    (dats m 0 c).before 2 t d = (stAt m c (t.val - 1) (pred_lt t)).1 := by
  have hN := lt16 t
  rw [(dats m 0 c).before_of_pos 2 t hz (fetch2_false t), flush2_false ⟨t.val - 1, pred_lt t⟩ (by dsimp only; omega), if_neg Bool.false_ne_true]
  unfold Dat.left
  by_cases hi : cfg0.idle 2 (cfg0.grid.coords ⟨t.val - 1, pred_lt t⟩) = true
  · have hp := (idle2_iff ⟨t.val - 1, pred_lt t⟩).mp hi
    dsimp only at hp
    rw [hi]
    show (dats m 0 c).before 2 ⟨t.val - 1, pred_lt t⟩ d = _
    have hz' : (⟨t.val - 1, pred_lt t⟩ : Fin cfg0.N).val ≠ 0 := by dsimp only; omega
    rw [(dats m 0 c).before_of_pos 2 ⟨t.val - 1, pred_lt t⟩ hz' (fetch2_false _), flush2_false ⟨t.val - 1 - 1, pred_lt ⟨t.val - 1, pred_lt t⟩⟩ (by dsimp only; omega), if_neg Bool.false_ne_true]
    unfold Dat.left
    have hi2 : cfg0.idle 2 (cfg0.grid.coords ⟨t.val - 1 - 1, pred_lt ⟨t.val - 1, pred_lt t⟩⟩) = false :=
      (idle2_false_iff _).mpr (Or.inl (by dsimp only; omega))
    rw [hi2]
    show (dats m 0 c).kept 2 ⟨t.val - 1 - 1, pred_lt ⟨t.val - 1, pred_lt t⟩⟩ d = _
    rw [kept2, stAt_upper m c ⟨t.val - 1, pred_lt t⟩ hz' hp.1]
    unfold stepUpper
    dsimp only
  · have hi' : cfg0.idle 2 (cfg0.grid.coords ⟨t.val - 1, pred_lt t⟩) = false := by
      cases h : cfg0.idle 2 (cfg0.grid.coords ⟨t.val - 1, pred_lt t⟩) with
      | true => exact absurd h hi
      | false => rfl
    rw [hi']
    exact kept2 m c ⟨t.val - 1, pred_lt t⟩ d

/-! ## The body, at any point -/

/-- What the body is handed at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the position says which kind of point it is; the
    result's buffer and the kept buffers hold what the point before left (anything, at the first point); so that
    kind's run applies, and what it leaves is what the state names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  have hN := lt16 t
  by_cases hz : t.val = 0
  · rw [show (dats m 0 c).leavesExact 2 t = owns (c : Thread nD τ) (ms2 t) fullShare ((dats m 0 c).after 2 t) from by
      unfold Dat.leavesExact; rw [(idle2_false_iff t).mpr (Or.inr (by omega))], after2]
    rw [stAt_first m c t hz]
    unfold stepFirst firstO firstE firstA firstP; (try dsimp only)
    simp only [before2_zero m c t hz]
    rw [PhiS_castSucc m c t, PhiS_zero m c _ _ hz, PhiA_eq]
    iintro ⟨⟨⟨HE, HA, HP⟩, Hg⟩, Ho, ⟨%d0, H0⟩, ⟨%d1, H1⟩, ⟨%d2, H2⟩⟩
    iapply ((runFirst c (grid0.coords t) _ _ _ _ _ _ _ _ _ _ _ _ (kFirst t hz).1 (kFirst t hz).2.1 (kFirst t hz).2.2.1 (kFirst t hz).2.2.2 (iblk m c 0 t) (iblk m c 1 t)).2.2.2.2 Set.univ _)
    isplitl [H0]; · iexact H0
    isplitl [H1]; · iexact H1
    isplitl [H2]; · iexists _; iexact H2
    isplitl [HE]; · iexact HE
    isplitl [HA]; · iexact HA
    isplitl [HP]; · iexact HP
    iintro ⟨H0, H1, ⟨%e2, H2⟩, ⟨%eE, HE⟩, ⟨%eA, HA⟩, ⟨%eP, HP⟩⟩
    isplitl [HE HA HP Hg]
    · isplitl [HE HA HP]
      · isplitl [HE]
        · unfold owns; iexists _; isplitr
          swap; · iexact HE
          ipureintro; exact View.read_writes_of_cover _ _ _ _ _ (firstE_cover c _ _ _ _ _ _ _ _ _ _ _ _ _ _ _ _ _ _ _)
        isplitl [HA]
        · unfold owns; iexists _; isplitr
          swap; · iexact HA
          ipureintro; exact View.read_writes_of_cover _ _ _ _ _ (firstA_cover c _ _ _ _ _ _ _ _ _ _ _ _ _ _ _ _ _ _ _)
        unfold owns; iexists _; isplitr
        swap; · iexact HP
        ipureintro; exact View.read_writes_of_cover _ _ _ _ _ (firstP_cover c _ _ _ _ _ _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (firstO_cover c _ _ _ _ _ _ _ _ _ _ _ _ _ _ _ _ _ _ _)
  · by_cases h1 : t.val % 2 = 0
    · rw [Dat.leavesExact_idle (dats m 0 c) 2 t ((idle2_iff t).mpr ⟨h1, by omega⟩) (flush2_false t (by omega))]
      rw [stAt_upper m c t hz h1]
      unfold stepUpper upperA upperP; (try dsimp only)
      simp only [before2_pos m c t hz]
      rw [PhiS_castSucc m c t, PhiS_pos m c _ _ hz]
      iintro ⟨⟨⟨HE, HA, HP⟩, Hg⟩, Ho, ⟨%d0, H0⟩, ⟨%d1, H1⟩, ⟨%d2, H2⟩⟩
      iapply ((runUpper c (grid0.coords t) _ _ _ _ _ _ _ _ _ _ _ _ (kUpper t hz h1).1 (kUpper t hz h1).2.1 (kUpper t hz h1).2.2.1 (kUpper t hz h1).2.2.2 (iblk m c 0 t) (iblk m c 1 t) _).2.2 _ Set.univ _)
      isplitl [H0]; · iexact H0
      isplitl [H1]; · iexact H1
      isplitl [H2]; · iexact H2
      isplitl [HE]; · iexact HE
      isplitl [HA]; · iexists _; iexact HA
      isplitl [HP]; · iexists _; iexact HP
      iintro ⟨H0, H1, H2, HE, ⟨%eA, HA⟩, ⟨%eP, HP⟩⟩
      isplitl [HE HA HP Hg]
      · isplitl [HE HA HP]
        · isplitl [HE]; · iexact HE
          isplitl [HA]
          · unfold owns; iexists _; isplitr
            swap; · iexact HA
            ipureintro; exact View.read_writes_of_cover _ _ _ _ _ (upperA_cover c _ _ _ _ _ _ _ _ _ _ _ _ _ _ _ _ _ _ _ _)
          unfold owns; iexists _; isplitr
          swap; · iexact HP
          ipureintro; exact View.read_writes_of_cover _ _ _ _ _ (upperP_cover c _ _ _ _ _ _ _ _ _ _ _ _ _ _ _ _ _ _ _ _)
        iexact Hg
      isplitl [Ho]; · iexact Ho
      isplitl [H0]; · iexact H0
      isplitl [H1]; · iexact H1
      iexists d2; iexact H2
    · have h1' : t.val % 2 = 1 := by omega
      rw [show (dats m 0 c).leavesExact 2 t = owns (c : Thread nD τ) (ms2 t) fullShare ((dats m 0 c).after 2 t) from by
        unfold Dat.leavesExact; rw [(idle2_false_iff t).mpr (Or.inl h1')], after2]
      simp only [before2_pos m c t hz]
      rw [PhiS_castSucc m c t, PhiS_pos m c _ _ hz]
      by_cases h3 : t.val % 16 = 15
      · rw [stAt_last m c t h3]
        unfold stepLast lastO; (try dsimp only)
        iintro ⟨⟨⟨HE, HA, HP⟩, Hg⟩, Ho, ⟨%d0, H0⟩, ⟨%d1, H1⟩, ⟨%d2, H2⟩⟩
        iapply ((runLast c (grid0.coords t) _ _ _ _ _ _ _ _ _ _ _ _ (kLast t h3).1 (kLast t h3).2.1 (kLast t h3).2.2.1 (kLast t h3).2.2.2 (iblk m c 0 t) (iblk m c 1 t) _ _ _ _).2 Set.univ _)
        isplitl [H0]; · iexact H0
        isplitl [H1]; · iexact H1
        isplitl [H2]; · iexact H2
        isplitl [HE]; · iexact HE
        isplitl [HA]; · iexact HA
        isplitl [HP]; · iexact HP
        iintro ⟨H0, H1, ⟨%e2, H2⟩, HE, HA, HP⟩
        isplitl [HE HA HP Hg]
        · isplitl [HE HA HP]
          · isplitl [HE]; · iexact HE
            isplitl [HA]; · iexact HA
            iexact HP
          iexact Hg
        isplitl [Ho]; · iexact Ho
        isplitl [H0]; · iexact H0
        isplitl [H1]; · iexact H1
        unfold owns; iexists _; isplitr
        swap; · iexact H2
        ipureintro; exact View.read_writes_of_cover _ _ _ _ _ (lastO_cover c _ _ _ _ _ _ _ _ _ _ _ _ _ _ _ _ _ _ _ _ _ _ _)
      · rw [stAt_lower m c t h1' h3]
        unfold stepLower lowerO; (try dsimp only)
        iintro ⟨⟨⟨HE, HA, HP⟩, Hg⟩, Ho, ⟨%d0, H0⟩, ⟨%d1, H1⟩, ⟨%d2, H2⟩⟩
        iapply ((runLower c (grid0.coords t) _ _ _ _ _ _ _ _ _ _ _ _ (kLower t h1' h3).1 (kLower t h1' h3).2.1 (kLower t h1' h3).2.2.1 (kLower t h1' h3).2.2.2 (iblk m c 0 t) (iblk m c 1 t) _ _ _ _).2 Set.univ _)
        isplitl [H0]; · iexact H0
        isplitl [H1]; · iexact H1
        isplitl [H2]; · iexact H2
        isplitl [HE]; · iexact HE
        isplitl [HA]; · iexact HA
        isplitl [HP]; · iexact HP
        iintro ⟨H0, H1, ⟨%e2, H2⟩, HE, HA, HP⟩
        isplitl [HE HA HP Hg]
        · isplitl [HE HA HP]
          · isplitl [HE]; · iexact HE
            isplitl [HA]; · iexact HA
            iexact HP
          iexact Hg
        isplitl [Ho]; · iexact Ho
        isplitl [H0]; · iexact H0
        isplitl [H1]; · iexact H1
        unfold owns; iexists _; isplitr
        swap; · iexact H2
        ipureintro; exact View.read_writes_of_cover _ _ _ _ _ (lowerO_cover c _ _ _ _ _ _ _ _ _ _ _ _ _ _ _ _ _ _ _ _ _ _ _)

/-- The body obligation of the launch, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA_eq]
  iintro ⟨⟨HE, HA, HP⟩, Hg⟩
  isplitl [HE HA HP]
  · isplitl [HE]; · iexists _; iexact HE
    isplitl [HA]; · iexists _; iexact HA
    iexists _; iexact HP
  iexact Hg

/-! ## The run -/

set_option backward.isDefEq.respectTransparency.types false in
/-- Every weakly fair execution of the program terminates, the result array at what the data computes from the
    points' write-backs and every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.Schedule.lean ====
/-
  The grid of the kernel is 8 column blocks (axis 0, index k) by 2 row halves (axis 1, index r), walked in
  order: point t = 2k + r. Four branches of the body are guarded by the coordinates:
    the first (k = 0 and r = 0) stores the cast of E and zeroes the accumulated result;
    the second (r = 0) keeps the upper half block of A and its partial product with the upper half of E;
    the third (r = 1) completes the hidden block, rectifies it and adds both halves' products to the result;
    the fourth (k = 7 and r = 1) rectifies the result.
  So the points fall into four kinds: the first point; the later points with r = 0; the points with r = 1 before
  the last; the last point. This module decides the guards over the grid, says where the result's window is
  left untouched and where it is written back, and names the buffers the body works on.
-/
import proofs.«120358_g26250840113511_retrytranche2_1766_24_alg».proof.Proof.Gen.KernelIdeal.Frame
import proofs.«120358_g26250840113511_retrytranche2_1766_24_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The guards, decided over the grid -/

/-- k = 0 and r = 0. -/
abbrev cFirst (i : grid0.Coords) : Prop := k0_cond1 i = 1#1
/-- r = 0. -/
abbrev cUpper (i : grid0.Coords) : Prop := (Scalar.cmpi .ne (Scalar.extui (Scalar.cmpi .eq (BitVec.ofNat 32 (i 1).val) 0#32)) 0#32) = 1#1
/-- r = 1. -/
abbrev cLower (i : grid0.Coords) : Prop := k0_cond3 i = 1#1
/-- k = 7 and r = 1. -/
abbrev cLast (i : grid0.Coords) : Prop := k0_cond4 i = 1#1

theorem hFirst : ∀ t : Fin cfg0.N, cFirst (grid0.coords t) ↔ t.val % 16 = 0 :=
  (by decide +kernel : ∀ t : Fin grid0.N, cFirst (grid0.coords t) ↔ t.val % 16 = 0)
theorem hUpper : ∀ t : Fin cfg0.N, cUpper (grid0.coords t) ↔ t.val % 2 = 0 :=
  (by decide +kernel : ∀ t : Fin grid0.N, cUpper (grid0.coords t) ↔ t.val % 2 = 0)
theorem hLower : ∀ t : Fin cfg0.N, cLower (grid0.coords t) ↔ t.val % 2 = 1 :=
  (by decide +kernel : ∀ t : Fin grid0.N, cLower (grid0.coords t) ↔ t.val % 2 = 1)
theorem hLast : ∀ t : Fin cfg0.N, cLast (grid0.coords t) ↔ t.val % 16 = 15 :=
  (by decide +kernel : ∀ t : Fin grid0.N, cLast (grid0.coords t) ↔ t.val % 16 = 15)

/-! ## Where the result's window is untouched, and where it is written back -/

theorem live0 : ∀ t : Fin cfg0.N, cfg0.idle 0 (grid0.coords t) = false := by decide +kernel
theorem live1 : ∀ t : Fin cfg0.N, cfg0.idle 1 (grid0.coords t) = false := by decide +kernel
/-- The result's window is untouched exactly at the later points with r = 0. -/
theorem idle2_iff : ∀ t : Fin cfg0.N, cfg0.idle 2 (grid0.coords t) = true ↔ (t.val % 2 = 0 ∧ t.val % 16 ≠ 0) := by decide +kernel
theorem idle2_false_iff : ∀ t : Fin cfg0.N, cfg0.idle 2 (grid0.coords t) = false ↔ (t.val % 2 = 1 ∨ t.val % 16 = 0) := by decide +kernel
/-- It is written back after the last point only. -/
theorem flush2_false : ∀ t : Fin cfg0.N, t.val % 16 ≠ 15 → (cfg0.win 2).flush t = false := by decide +kernel
theorem fetch2_false : ∀ t : Fin cfg0.N, (cfg0.win 2).fetch t = false := by decide +kernel
theorem clip2_none : ∀ (i : cfg0.grid.Coords) a, (cfg0.win 2).clip i a = none := by decide +kernel

/-! ## The buffers the body works on -/

/-- Each window's current staging buffer at point t. -/
abbrev ms0 (t : Fin cfg0.N) : Memref sig .tc .vmem S5000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hs2 (t : Fin cfg0.N) : (ms2 t).IsWhole := hstage0_2 ((cfg0.slots t 2).cast nbuf0_2)
/-- The three buffers the kernel keeps between points: the cast of E, the cast of the upper half block of A,
    and the upper half's partial product. -/
abbrev scE : Memref sig .tc .vmem S10000x128 .bf16 := Memref.whole cc0_scratch0
abbrev scA : Memref sig .tc .vmem S5000x256 .bf16 := Memref.whole cc0_scratch1
abbrev scP : Memref sig .tc .vmem S256x128 .f32 := Memref.whole cc0_scratch2
/-- Views through which their contents, and the result buffer's, are stated. -/
abbrev vE : View sig .tc .vmem S10000x128 .bf16 := scE.view
abbrev vA : View sig .tc .vmem S5000x256 .bf16 := scA.view
abbrev vP : View sig .tc .vmem S256x128 .f32 := scP.view
abbrev vO : View sig .tc .vmem S10000x128 .f32 := (Memref.whole cc0_stg2_0 : Memref sig .tc .vmem S10000x128 .f32).view

/-- Before the first point the three kept buffers hold anything. -/
theorem PhiA_eq (c : Dev nD) :
    (Pipeline.ΦA spec0 c : sProp 𝕄)
      = iprop(iprop((∃ d, owns (c : Thread nD τ) scE fullShare d) ∗ (∃ d, owns (c : Thread nD τ) scA fullShare d) ∗ (∃ d, owns (c : Thread nD τ) scP fullShare d)) ∗ (∃ r, prngReg c r)) := by
  unfold Pipeline.ΦA; rw [scopedRest0_eq]; simp only [scE, scA, scP, owns_whole]; try rfl

end Cert.KernelIdeal.Body

end
-- ==== Proof.StepFirst.lean ====
/-
  The body at the first grid point (k = 0, r = 0). Handed the first block of A's upper half and all of E, with the
  result's buffer and the three kept buffers at anything, it stores the cast of E, zeroes the result, keeps the cast
  of the block and stores the block's product with the upper half of E. What each buffer ends with is found by
  running the body.
-/
import proofs.«120358_g26250840113511_retrytranche2_1766_24_alg».proof.Proof.Schedule

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at the first point: what its stores leave in the result's buffer and in the three kept buffers. -/
noncomputable def runFirst (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : cFirst i) (hc1 : cUpper i) (hc2 : ¬cLower i) (hc3 : ¬cLast i)
    (x0 : Vec F S5000x256 .f32) (x1 : Vec F S10000x128 .f32) :
    Σ' (LO : List (View.Piece (Elt F) S10000x128 .f32)) (LE : List (View.Piece (Elt F) S10000x128 .bf16)) (LA : List (View.Piece (Elt F) S5000x256 .bf16)), { LP : List (View.Piece (Elt F) S256x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LE) ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LP)) -∗ K ⟨⟩))
          ⊢ wp frame (wpE (defs₀ (F := F)) Variants.none c none) E (cc0__body i arg2 harg2 arg3 harg3 arg4 harg4 arg5 harg5 arg6 harg6 arg7 harg7) K } := by
  refine ⟨?_, ?_, ?_, ?_, fun E K => ?run⟩
  case run =>
    simp only [cc0__body_eq_skeleton]; unfold cc0__body_skel
    unfold owns
    iintro ⟨⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg2.eq_unread hf2; obtain rfl := harg3.eq_unread hf3
    sl_exec (disch := first | exact hc0 | exact hc1 | exact hc2 | exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    iexists _; iexact H7

end Cert.KernelIdeal.Body

end
-- ==== Proof.StepUpper.lean ====
/-
  The body at a later grid point with r = 0 (the upper half of column block k, k > 0). Handed the block of A and all
  of E, the result's buffer at whatever it holds (it is not touched), the cast of E as kept, and the other two kept
  buffers at anything, it keeps the cast of the block and stores the block's product with the upper half of the kept
  cast of E. What the two rewritten buffers end with is found by running the body.
-/
import proofs.«120358_g26250840113511_retrytranche2_1766_24_alg».proof.Proof.Schedule

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a later point with r = 0: the result's buffer and the kept cast of E are handed back as found; what its stores leave in the other two kept buffers. -/
noncomputable def runUpper (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : cUpper i) (hc2 : ¬cLower i) (hc3 : ¬cLast i)
    (x0 : Vec F S5000x256 .f32) (x1 : Vec F S10000x128 .f32) (xe : Vec F S10000x128 .bf16) :
    Σ' (LA : List (View.Piece (Elt F) S5000x256 .bf16)), { LP : List (View.Piece (Elt F) S256x128 .f32) //
      ∀ (xi : Vec F S10000x128 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xe ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi ∗ owns (c : Thread nD τ) arg5 fullShare xe ∗ (∃ f, arg6.view.loc (c : Thread nD τ) ↦[arg6.view.set]{fullShare} arg6.view.writes (Elt F) f LA) ∗ (∃ f, arg7.view.loc (c : Thread nD τ) ↦[arg7.view.set]{fullShare} arg7.view.writes (Elt F) f LP)) -∗ K ⟨⟩))
          ⊢ wp frame (wpE (defs₀ (F := F)) Variants.none c none) E (cc0__body i arg2 harg2 arg3 harg3 arg4 harg4 arg5 harg5 arg6 harg6 arg7 harg7) K } := by
  refine ⟨?_, ?_, fun xi E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf2; obtain rfl := harg3.eq_unread hf3; obtain rfl := harg4.eq_unread hf4; obtain rfl := harg5.eq_unread hf5
    sl_exec (disch := first | exact hc0 | exact hc1 | exact hc2 | exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

end Cert.KernelIdeal.Body

end
-- ==== Proof.StepLower.lean ====
/-
  The body at a grid point with r = 1 that is not the last (the lower half of column block k, k < 7). Handed the
  block of A, the result's buffer at what the points before accumulated, and the three kept buffers as kept, it
  completes the hidden block, rectifies it, and adds the upper half's product to the result's upper rows and the lower
  half's to its lower rows. What the result's buffer ends with is found by running the body; the kept buffers are
  handed back as found.
-/
import proofs.«120358_g26250840113511_retrytranche2_1766_24_alg».proof.Proof.Schedule

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point with r = 1 before the last: what its two stores leave in the result's buffer. -/
noncomputable def runLower (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : ¬cUpper i) (hc2 : cLower i) (hc3 : ¬cLast i)
    (x0 : Vec F S5000x256 .f32) (x1 : Vec F S10000x128 .f32) (xo : Vec F S10000x128 .f32) (xe : Vec F S10000x128 .bf16) (xa : Vec F S5000x256 .bf16) (xp : Vec F S256x128 .f32) :
    { LO : List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xe ∗ owns (c : Thread nD τ) arg6 fullShare xa ∗ owns (c : Thread nD τ) arg7 fullShare xp
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ owns (c : Thread nD τ) arg5 fullShare xe ∗ owns (c : Thread nD τ) arg6 fullShare xa ∗ owns (c : Thread nD τ) arg7 fullShare xp) -∗ K ⟨⟩))
          ⊢ wp frame (wpE (defs₀ (F := F)) Variants.none c none) E (cc0__body i arg2 harg2 arg3 harg3 arg4 harg4 arg5 harg5 arg6 harg6 arg7 harg7) K } := by
  refine ⟨?_, fun E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | exact hc0 | exact hc1 | exact hc2 | exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7

end Cert.KernelIdeal.Body

end
-- ==== Proof.StepLast.lean ====
/-
  The body at the last grid point (k = 7, r = 1): as at the other points with r = 1, and then the whole accumulated
  result is rectified in place. What the result's buffer ends with is found by running the body; the kept buffers
  are handed back as found.
-/
import proofs.«120358_g26250840113511_retrytranche2_1766_24_alg».proof.Proof.Schedule

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at the last point: what its three stores leave in the result's buffer. -/
noncomputable def runLast (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : ¬cUpper i) (hc2 : cLower i) (hc3 : cLast i)
    (x0 : Vec F S5000x256 .f32) (x1 : Vec F S10000x128 .f32) (xo : Vec F S10000x128 .f32) (xe : Vec F S10000x128 .bf16) (xa : Vec F S5000x256 .bf16) (xp : Vec F S256x128 .f32) :
    { LO : List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xe ∗ owns (c : Thread nD τ) arg6 fullShare xa ∗ owns (c : Thread nD τ) arg7 fullShare xp
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ owns (c : Thread nD τ) arg5 fullShare xe ∗ owns (c : Thread nD τ) arg6 fullShare xa ∗ owns (c : Thread nD τ) arg7 fullShare xp) -∗ K ⟨⟩))
          ⊢ wp frame (wpE (defs₀ (F := F)) Variants.none c none) E (cc0__body i arg2 harg2 arg3 harg3 arg4 harg4 arg5 harg5 arg6 harg6 arg7 harg7) K } := by
  refine ⟨?_, fun E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | exact hc0 | exact hc1 | exact hc2 | exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7

end Cert.KernelIdeal.Body

end
-- ==== Proof.Carried.lean ====
/-
  What the buffers hold from point to point.  After each grid point four buffers matter: the result's buffer and the
  three the kernel keeps (the cast of E, the cast of the upper half block of A, the upper half's partial product).
  The first point fills all four; a later point with r = 0 rewrites the last two and leaves the other two alone; a
  point with r = 1 rewrites the result's buffer from all four and leaves the kept ones alone.  This module names
  what each kind of point leaves, threads it through the sixteen points, and proves that the body, run at any
  point from what the point before left, leaves exactly that: so every execution of the program terminates with
  the result array holding what the last point left and the argument arrays unchanged.
-/
import proofs.«120358_g26250840113511_retrytranche2_1766_24_alg».proof.Proof.StepFirst
import proofs.«120358_g26250840113511_retrytranche2_1766_24_alg».proof.Proof.StepUpper
import proofs.«120358_g26250840113511_retrytranche2_1766_24_alg».proof.Proof.StepLower
import proofs.«120358_g26250840113511_retrytranche2_1766_24_alg».proof.Proof.StepLast
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each kind of point leaves in each buffer -/

/-- The result's buffer after the first point. -/
def firstO (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : cFirst i) (hc1 : cUpper i) (hc2 : ¬cLower i) (hc3 : ¬cLast i)
    (x0 : Vec F S5000x256 .f32) (x1 : Vec F S10000x128 .f32) : Vec F S10000x128 .f32 :=
  vO.read (Elt F) (vO.writes (Elt F) vO.junk (runFirst c i arg2 harg2 arg3 harg3 arg4 harg4 arg5 harg5 arg6 harg6 arg7 harg7 hc0 hc1 hc2 hc3 x0 x1).1)

theorem firstO_cover (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : cFirst i) (hc1 : cUpper i) (hc2 : ¬cLower i) (hc3 : ¬cLast i)
    (x0 : Vec F S5000x256 .f32) (x1 : Vec F S10000x128 .f32) (y : S10000x128.Idx) :
    ∃ pc ∈ (runFirst c i arg2 harg2 arg3 harg3 arg4 harg4 arg5 harg5 arg6 harg6 arg7 harg7 hc0 hc1 hc2 hc3 x0 x1).1, y ∈ pc.1.set :=
  View.cover_of_tiledL _ S10000x128.size (by sl_kernel_rfl) y
/-- The kept cast of E after the first point. -/
def firstE (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : cFirst i) (hc1 : cUpper i) (hc2 : ¬cLower i) (hc3 : ¬cLast i)
    (x0 : Vec F S5000x256 .f32) (x1 : Vec F S10000x128 .f32) : Vec F S10000x128 .bf16 :=
  vE.read (Elt F) (vE.writes (Elt F) vE.junk (runFirst c i arg2 harg2 arg3 harg3 arg4 harg4 arg5 harg5 arg6 harg6 arg7 harg7 hc0 hc1 hc2 hc3 x0 x1).2.1)

theorem firstE_cover (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : cFirst i) (hc1 : cUpper i) (hc2 : ¬cLower i) (hc3 : ¬cLast i)
    (x0 : Vec F S5000x256 .f32) (x1 : Vec F S10000x128 .f32) (y : S10000x128.Idx) :
    ∃ pc ∈ (runFirst c i arg2 harg2 arg3 harg3 arg4 harg4 arg5 harg5 arg6 harg6 arg7 harg7 hc0 hc1 hc2 hc3 x0 x1).2.1, y ∈ pc.1.set :=
  View.cover_of_tiledL _ S10000x128.size (by sl_kernel_rfl) y
/-- The kept cast of the upper half block after the first point. -/
def firstA (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : cFirst i) (hc1 : cUpper i) (hc2 : ¬cLower i) (hc3 : ¬cLast i)
    (x0 : Vec F S5000x256 .f32) (x1 : Vec F S10000x128 .f32) : Vec F S5000x256 .bf16 :=
  vA.read (Elt F) (vA.writes (Elt F) vA.junk (runFirst c i arg2 harg2 arg3 harg3 arg4 harg4 arg5 harg5 arg6 harg6 arg7 harg7 hc0 hc1 hc2 hc3 x0 x1).2.2.1)

theorem firstA_cover (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : cFirst i) (hc1 : cUpper i) (hc2 : ¬cLower i) (hc3 : ¬cLast i)
    (x0 : Vec F S5000x256 .f32) (x1 : Vec F S10000x128 .f32) (y : S5000x256.Idx) :
    ∃ pc ∈ (runFirst c i arg2 harg2 arg3 harg3 arg4 harg4 arg5 harg5 arg6 harg6 arg7 harg7 hc0 hc1 hc2 hc3 x0 x1).2.2.1, y ∈ pc.1.set :=
  View.cover_of_tiledL _ S5000x256.size (by sl_kernel_rfl) y
/-- The kept partial product after the first point. -/
def firstP (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : cFirst i) (hc1 : cUpper i) (hc2 : ¬cLower i) (hc3 : ¬cLast i)
    (x0 : Vec F S5000x256 .f32) (x1 : Vec F S10000x128 .f32) : Vec F S256x128 .f32 :=
  vP.read (Elt F) (vP.writes (Elt F) vP.junk (runFirst c i arg2 harg2 arg3 harg3 arg4 harg4 arg5 harg5 arg6 harg6 arg7 harg7 hc0 hc1 hc2 hc3 x0 x1).2.2.2.1)

theorem firstP_cover (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : cFirst i) (hc1 : cUpper i) (hc2 : ¬cLower i) (hc3 : ¬cLast i)
    (x0 : Vec F S5000x256 .f32) (x1 : Vec F S10000x128 .f32) (y : S256x128.Idx) :
    ∃ pc ∈ (runFirst c i arg2 harg2 arg3 harg3 arg4 harg4 arg5 harg5 arg6 harg6 arg7 harg7 hc0 hc1 hc2 hc3 x0 x1).2.2.2.1, y ∈ pc.1.set :=
  View.cover_of_tiledL _ S256x128.size (by sl_kernel_rfl) y
/-- The kept cast of the upper half block after a later point with r = 0. -/
def upperA (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : cUpper i) (hc2 : ¬cLower i) (hc3 : ¬cLast i)
    (x0 : Vec F S5000x256 .f32) (x1 : Vec F S10000x128 .f32) (xe : Vec F S10000x128 .bf16) : Vec F S5000x256 .bf16 :=
  vA.read (Elt F) (vA.writes (Elt F) vA.junk (runUpper c i arg2 harg2 arg3 harg3 arg4 harg4 arg5 harg5 arg6 harg6 arg7 harg7 hc0 hc1 hc2 hc3 x0 x1 xe).1)

theorem upperA_cover (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : cUpper i) (hc2 : ¬cLower i) (hc3 : ¬cLast i)
    (x0 : Vec F S5000x256 .f32) (x1 : Vec F S10000x128 .f32) (xe : Vec F S10000x128 .bf16) (y : S5000x256.Idx) :
    ∃ pc ∈ (runUpper c i arg2 harg2 arg3 harg3 arg4 harg4 arg5 harg5 arg6 harg6 arg7 harg7 hc0 hc1 hc2 hc3 x0 x1 xe).1, y ∈ pc.1.set :=
  View.cover_of_tiledL _ S5000x256.size (by sl_kernel_rfl) y
/-- The kept partial product after a later point with r = 0. -/
def upperP (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : cUpper i) (hc2 : ¬cLower i) (hc3 : ¬cLast i)
    (x0 : Vec F S5000x256 .f32) (x1 : Vec F S10000x128 .f32) (xe : Vec F S10000x128 .bf16) : Vec F S256x128 .f32 :=
  vP.read (Elt F) (vP.writes (Elt F) vP.junk (runUpper c i arg2 harg2 arg3 harg3 arg4 harg4 arg5 harg5 arg6 harg6 arg7 harg7 hc0 hc1 hc2 hc3 x0 x1 xe).2.1)

theorem upperP_cover (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : cUpper i) (hc2 : ¬cLower i) (hc3 : ¬cLast i)
    (x0 : Vec F S5000x256 .f32) (x1 : Vec F S10000x128 .f32) (xe : Vec F S10000x128 .bf16) (y : S256x128.Idx) :
    ∃ pc ∈ (runUpper c i arg2 harg2 arg3 harg3 arg4 harg4 arg5 harg5 arg6 harg6 arg7 harg7 hc0 hc1 hc2 hc3 x0 x1 xe).2.1, y ∈ pc.1.set :=
  View.cover_of_tiledL _ S256x128.size (by sl_kernel_rfl) y
/-- The result's buffer after a point with r = 1 that is not the last. -/
def lowerO (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : ¬cUpper i) (hc2 : cLower i) (hc3 : ¬cLast i)
    (x0 : Vec F S5000x256 .f32) (x1 : Vec F S10000x128 .f32) (xo : Vec F S10000x128 .f32) (xe : Vec F S10000x128 .bf16) (xa : Vec F S5000x256 .bf16) (xp : Vec F S256x128 .f32) : Vec F S10000x128 .f32 :=
  vO.read (Elt F) (vO.writes (Elt F) vO.junk (runLower c i arg2 harg2 arg3 harg3 arg4 harg4 arg5 harg5 arg6 harg6 arg7 harg7 hc0 hc1 hc2 hc3 x0 x1 xo xe xa xp).1)

theorem lowerO_cover (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : ¬cUpper i) (hc2 : cLower i) (hc3 : ¬cLast i)
    (x0 : Vec F S5000x256 .f32) (x1 : Vec F S10000x128 .f32) (xo : Vec F S10000x128 .f32) (xe : Vec F S10000x128 .bf16) (xa : Vec F S5000x256 .bf16) (xp : Vec F S256x128 .f32) (y : S10000x128.Idx) :
    ∃ pc ∈ (runLower c i arg2 harg2 arg3 harg3 arg4 harg4 arg5 harg5 arg6 harg6 arg7 harg7 hc0 hc1 hc2 hc3 x0 x1 xo xe xa xp).1, y ∈ pc.1.set :=
  View.cover_of_tiledL (s := S10000x128) _ ![5000, 128] (by sl_kernel_rfl) y
/-- The result's buffer after the last point. -/
def lastO (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : ¬cUpper i) (hc2 : cLower i) (hc3 : cLast i)
    (x0 : Vec F S5000x256 .f32) (x1 : Vec F S10000x128 .f32) (xo : Vec F S10000x128 .f32) (xe : Vec F S10000x128 .bf16) (xa : Vec F S5000x256 .bf16) (xp : Vec F S256x128 .f32) : Vec F S10000x128 .f32 :=
  vO.read (Elt F) (vO.writes (Elt F) vO.junk (runLast c i arg2 harg2 arg3 harg3 arg4 harg4 arg5 harg5 arg6 harg6 arg7 harg7 hc0 hc1 hc2 hc3 x0 x1 xo xe xa xp).1)

/-- The last point's final store covers the whole buffer. -/
theorem lastO_cover (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole) (hc0 : ¬cFirst i) (hc1 : ¬cUpper i) (hc2 : cLower i) (hc3 : cLast i)
    (x0 : Vec F S5000x256 .f32) (x1 : Vec F S10000x128 .f32) (xo : Vec F S10000x128 .f32) (xe : Vec F S10000x128 .bf16) (xa : Vec F S5000x256 .bf16) (xp : Vec F S256x128 .f32) (y : S10000x128.Idx) :
    ∃ pc ∈ (runLast c i arg2 harg2 arg3 harg3 arg4 harg4 arg5 harg5 arg6 harg6 arg7 harg7 hc0 hc1 hc2 hc3 x0 x1 xo xe xa xp).1, y ∈ pc.1.set :=
  View.cover_of_wholeMem _ (by sl_whole_mem) y

/-! ## The four kinds of point -/

theorem lt16 (t : Fin cfg0.N) : t.val < 16 := lt_of_lt_of_eq t.isLt (show cfg0.N = 16 from N_0)
theorem pred_lt (t : Fin cfg0.N) : t.val - 1 < cfg0.N := Nat.lt_of_le_of_lt (Nat.sub_le _ _) t.isLt

theorem kFirst (t : Fin cfg0.N) (hz : t.val = 0) :
    cFirst (grid0.coords t) ∧ cUpper (grid0.coords t) ∧ ¬cLower (grid0.coords t) ∧ ¬cLast (grid0.coords t) :=
  ⟨(hFirst t).mpr (by omega), (hUpper t).mpr (by omega), fun h => by have := (hLower t).mp h; omega, fun h => by have := (hLast t).mp h; omega⟩
theorem kUpper (t : Fin cfg0.N) (hz : t.val ≠ 0) (h1 : t.val % 2 = 0) :
    ¬cFirst (grid0.coords t) ∧ cUpper (grid0.coords t) ∧ ¬cLower (grid0.coords t) ∧ ¬cLast (grid0.coords t) :=
  ⟨fun h => by have := (hFirst t).mp h; have := lt16 t; omega, (hUpper t).mpr h1, fun h => by have := (hLower t).mp h; omega, fun h => by have := (hLast t).mp h; omega⟩
theorem kLower (t : Fin cfg0.N) (h1 : t.val % 2 = 1) (h3 : t.val % 16 ≠ 15) :
    ¬cFirst (grid0.coords t) ∧ ¬cUpper (grid0.coords t) ∧ cLower (grid0.coords t) ∧ ¬cLast (grid0.coords t) :=
  ⟨fun h => by have := (hFirst t).mp h; omega, fun h => by have := (hUpper t).mp h; omega, (hLower t).mpr h1, fun h => h3 ((hLast t).mp h)⟩
theorem kLast (t : Fin cfg0.N) (h3 : t.val % 16 = 15) :
    ¬cFirst (grid0.coords t) ∧ ¬cUpper (grid0.coords t) ∧ cLower (grid0.coords t) ∧ cLast (grid0.coords t) :=
  ⟨fun h => by have := (hFirst t).mp h; omega, fun h => by have := (hUpper t).mp h; omega, (hLower t).mpr (by omega), (hLast t).mpr h3⟩

variable (m : (ℓ : Loc nD τ sig) → Buf (Elt F) ℓ) (ρ : Dev nD → PrngReg)

/-! ## From point to point -/

/-- What matters after a point: the result's buffer, the cast of E, the cast of the upper half block of A, and the
    upper half's partial product. -/
abbrev St (F : FTy → Type) [FloatOps F] : Type :=
  Vec F S10000x128 .f32 × Vec F S10000x128 .bf16 × Vec F S5000x256 .bf16 × Vec F S256x128 .f32

/-- The first point fills all four from its two blocks. -/
def stepFirst (c : Dev nD) (t : Fin cfg0.N) (hz : t.val = 0) : St F :=
  (firstO c (grid0.coords t) (ms0 t) (hs0 t) (ms1 t) (hs1 t) (ms2 t) (hs2 t) scE (Memref.isWhole_whole _) scA (Memref.isWhole_whole _) scP (Memref.isWhole_whole _) (kFirst t hz).1 (kFirst t hz).2.1 (kFirst t hz).2.2.1 (kFirst t hz).2.2.2 (iblk m c 0 t) (iblk m c 1 t),
   firstE c (grid0.coords t) (ms0 t) (hs0 t) (ms1 t) (hs1 t) (ms2 t) (hs2 t) scE (Memref.isWhole_whole _) scA (Memref.isWhole_whole _) scP (Memref.isWhole_whole _) (kFirst t hz).1 (kFirst t hz).2.1 (kFirst t hz).2.2.1 (kFirst t hz).2.2.2 (iblk m c 0 t) (iblk m c 1 t),
   firstA c (grid0.coords t) (ms0 t) (hs0 t) (ms1 t) (hs1 t) (ms2 t) (hs2 t) scE (Memref.isWhole_whole _) scA (Memref.isWhole_whole _) scP (Memref.isWhole_whole _) (kFirst t hz).1 (kFirst t hz).2.1 (kFirst t hz).2.2.1 (kFirst t hz).2.2.2 (iblk m c 0 t) (iblk m c 1 t),
   firstP c (grid0.coords t) (ms0 t) (hs0 t) (ms1 t) (hs1 t) (ms2 t) (hs2 t) scE (Memref.isWhole_whole _) scA (Memref.isWhole_whole _) scP (Memref.isWhole_whole _) (kFirst t hz).1 (kFirst t hz).2.1 (kFirst t hz).2.2.1 (kFirst t hz).2.2.2 (iblk m c 0 t) (iblk m c 1 t))

/-- A later point with r = 0 rewrites the last two from its block and the kept cast of E. -/
def stepUpper (c : Dev nD) (t : Fin cfg0.N) (hz : t.val ≠ 0) (h1 : t.val % 2 = 0) (s : St F) : St F :=
  (s.1, s.2.1,
   upperA c (grid0.coords t) (ms0 t) (hs0 t) (ms1 t) (hs1 t) (ms2 t) (hs2 t) scE (Memref.isWhole_whole _) scA (Memref.isWhole_whole _) scP (Memref.isWhole_whole _) (kUpper t hz h1).1 (kUpper t hz h1).2.1 (kUpper t hz h1).2.2.1 (kUpper t hz h1).2.2.2 (iblk m c 0 t) (iblk m c 1 t) s.2.1,
   upperP c (grid0.coords t) (ms0 t) (hs0 t) (ms1 t) (hs1 t) (ms2 t) (hs2 t) scE (Memref.isWhole_whole _) scA (Memref.isWhole_whole _) scP (Memref.isWhole_whole _) (kUpper t hz h1).1 (kUpper t hz h1).2.1 (kUpper t hz h1).2.2.1 (kUpper t hz h1).2.2.2 (iblk m c 0 t) (iblk m c 1 t) s.2.1)

/-- A point with r = 1 before the last rewrites the result's buffer from its block and all four. -/
def stepLower (c : Dev nD) (t : Fin cfg0.N) (h1 : t.val % 2 = 1) (h3 : t.val % 16 ≠ 15) (s : St F) : St F :=
  (lowerO c (grid0.coords t) (ms0 t) (hs0 t) (ms1 t) (hs1 t) (ms2 t) (hs2 t) scE (Memref.isWhole_whole _) scA (Memref.isWhole_whole _) scP (Memref.isWhole_whole _) (kLower t h1 h3).1 (kLower t h1 h3).2.1 (kLower t h1 h3).2.2.1 (kLower t h1 h3).2.2.2 (iblk m c 0 t) (iblk m c 1 t) s.1 s.2.1 s.2.2.1 s.2.2.2,
   s.2.1, s.2.2.1, s.2.2.2)

/-- So does the last point, and rectifies it. -/
def stepLast (c : Dev nD) (t : Fin cfg0.N) (h3 : t.val % 16 = 15) (s : St F) : St F :=
  (lastO c (grid0.coords t) (ms0 t) (hs0 t) (ms1 t) (hs1 t) (ms2 t) (hs2 t) scE (Memref.isWhole_whole _) scA (Memref.isWhole_whole _) scP (Memref.isWhole_whole _) (kLast t h3).1 (kLast t h3).2.1 (kLast t h3).2.2.1 (kLast t h3).2.2.2 (iblk m c 0 t) (iblk m c 1 t) s.1 s.2.1 s.2.2.1 s.2.2.2,
   s.2.1, s.2.2.1, s.2.2.2)

/-- What the four buffers hold after the point at position n. -/
def stAt (c : Dev nD) : (n : ℕ) → n < cfg0.N → St F
  | 0, hn => stepFirst m c ⟨0, hn⟩ rfl
  | n + 1, hn =>
    if h1 : (n + 1) % 2 = 0 then stepUpper m c ⟨n + 1, hn⟩ (Nat.succ_ne_zero n) h1 (stAt c n (Nat.lt_of_succ_lt hn))
    else if h3 : (n + 1) % 16 = 15 then stepLast m c ⟨n + 1, hn⟩ h3 (stAt c n (Nat.lt_of_succ_lt hn))
    else stepLower m c ⟨n + 1, hn⟩ (by show (n + 1) % 2 = 1; omega) h3 (stAt c n (Nat.lt_of_succ_lt hn))

theorem stAt_first (c : Dev nD) (t : Fin cfg0.N) (hz : t.val = 0) : stAt m c t.val t.isLt = stepFirst m c t hz := by
  obtain ⟨n, hn⟩ := t
  cases n with
  | zero => rfl
  | succ n => exact absurd hz (Nat.succ_ne_zero n)

theorem stAt_upper (c : Dev nD) (t : Fin cfg0.N) (hz : t.val ≠ 0) (h1 : t.val % 2 = 0) :
    stAt m c t.val t.isLt = stepUpper m c t hz h1 (stAt m c (t.val - 1) (pred_lt t)) := by
  obtain ⟨n, hn⟩ := t
  cases n with
  | zero => exact absurd rfl hz
  | succ n => exact (dif_pos h1).trans rfl

theorem stAt_lower (c : Dev nD) (t : Fin cfg0.N) (h1 : t.val % 2 = 1) (h3 : t.val % 16 ≠ 15) :
    stAt m c t.val t.isLt = stepLower m c t h1 h3 (stAt m c (t.val - 1) (pred_lt t)) := by
  obtain ⟨n, hn⟩ := t
  cases n with
  | zero => exfalso; dsimp only at h1; omega
  | succ n => exact (dif_neg (by dsimp only at h1; omega)).trans ((dif_neg h3).trans rfl)

theorem stAt_last (c : Dev nD) (t : Fin cfg0.N) (h3 : t.val % 16 = 15) :
    stAt m c t.val t.isLt = stepLast m c t h3 (stAt m c (t.val - 1) (pred_lt t)) := by
  obtain ⟨n, hn⟩ := t
  cases n with
  | zero => exfalso; dsimp only at h3; omega
  | succ n => exact (dif_neg (by dsimp only at h3; omega)).trans ((dif_pos h3).trans rfl)

/-- What the kernel holds in its three kept buffers before position n: anything before the first point, then what
    the point before left. -/
def PhiS (c : Dev nD) : (n : ℕ) → n ≤ cfg0.N → sProp 𝕄
  | 0, _ => Pipeline.ΦA spec0 c
  | n + 1, hn => iprop(iprop(owns (c : Thread nD τ) scE fullShare ((stAt m c n hn).2.1) ∗ owns (c : Thread nD τ) scA fullShare ((stAt m c n hn).2.2.1) ∗ owns (c : Thread nD τ) scP fullShare ((stAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scE fullShare ((stAt m c n hn).2.1) ∗ owns (c : Thread nD τ) scA fullShare ((stAt m c n hn).2.2.1) ∗ owns (c : Thread nD τ) scP fullShare ((stAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) scE fullShare ((stAt m c (n - 1) (by omega)).2.1) ∗ owns (c : Thread nD τ) scA fullShare ((stAt m c (n - 1) (by omega)).2.2.1) ∗ owns (c : Thread nD τ) scP fullShare ((stAt m c (n - 1) (by omega)).2.2.2)) ∗ (∃ r, prngReg c r)) := by
  cases n with
  | zero => exact absurd rfl hz
  | succ n => rfl

/-! ## The data of the run -/

/-- The arrays as the region finds them; after the body at point t each input's buffer at its block and the
    result's at what the point leaves; between points the three kept buffers at what the point before left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (stAt m c t.val t.isLt).1 := by dsimp only [dats]

/-- Each input's current buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The result's buffer holds anything at the first point; -/
theorem before2_zero (c : Dev nD) (t : Fin cfg0.N) (hz : t.val = 0) (d) : (dats m 0 c).before 2 t d = d :=
  (dats m 0 c).before_out_reset 2 rfl t (.inl hz) d

/-- what a point leaves there is what the next finds when nothing is written back in between; -/
theorem kept2 (c : Dev nD) (t : Fin cfg0.N) (d) : (dats m 0 c).kept 2 t d = (stAt m c t.val t.isLt).1 := by
  unfold Dat.kept
  rw [Pipeline.fill_of_clip_none (cfg := cfg0) 2 _ (clip2_none _) d ((dats m 0 c).after 2 t), Pipeline.Window.fill_cut, after2]

/-- so at every later point it holds what the point before left (through a point that leaves it untouched: what
    the point before that left, which that point's state repeats). -/
theorem before2_pos (c : Dev nD) (t : Fin cfg0.N) (hz : t.val ≠ 0) (d) :
    (dats m 0 c).before 2 t d = (stAt m c (t.val - 1) (pred_lt t)).1 := by
  have hN := lt16 t
  rw [(dats m 0 c).before_of_pos 2 t hz (fetch2_false t), flush2_false ⟨t.val - 1, pred_lt t⟩ (by dsimp only; omega), if_neg Bool.false_ne_true]
  unfold Dat.left
  by_cases hi : cfg0.idle 2 (cfg0.grid.coords ⟨t.val - 1, pred_lt t⟩) = true
  · have hp := (idle2_iff ⟨t.val - 1, pred_lt t⟩).mp hi
    dsimp only at hp
    rw [hi]
    show (dats m 0 c).before 2 ⟨t.val - 1, pred_lt t⟩ d = _
    have hz' : (⟨t.val - 1, pred_lt t⟩ : Fin cfg0.N).val ≠ 0 := by dsimp only; omega
    rw [(dats m 0 c).before_of_pos 2 ⟨t.val - 1, pred_lt t⟩ hz' (fetch2_false _), flush2_false ⟨t.val - 1 - 1, pred_lt ⟨t.val - 1, pred_lt t⟩⟩ (by dsimp only; omega), if_neg Bool.false_ne_true]
    unfold Dat.left
    have hi2 : cfg0.idle 2 (cfg0.grid.coords ⟨t.val - 1 - 1, pred_lt ⟨t.val - 1, pred_lt t⟩⟩) = false :=
      (idle2_false_iff _).mpr (Or.inl (by dsimp only; omega))
    rw [hi2]
    show (dats m 0 c).kept 2 ⟨t.val - 1 - 1, pred_lt ⟨t.val - 1, pred_lt t⟩⟩ d = _
    rw [kept2, stAt_upper m c ⟨t.val - 1, pred_lt t⟩ hz' hp.1]
    unfold stepUpper
    dsimp only
  · have hi' : cfg0.idle 2 (cfg0.grid.coords ⟨t.val - 1, pred_lt t⟩) = false := by
      cases h : cfg0.idle 2 (cfg0.grid.coords ⟨t.val - 1, pred_lt t⟩) with
      | true => exact absurd h hi
      | false => rfl
    rw [hi']
    exact kept2 m c ⟨t.val - 1, pred_lt t⟩ d

/-! ## The body, at any point -/

/-- What the body is handed at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the position says which kind of point it is; the
    result's buffer and the kept buffers hold what the point before left (anything, at the first point); so that
    kind's run applies, and what it leaves is what the state names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  have hN := lt16 t
  by_cases hz : t.val = 0
  · rw [show (dats m 0 c).leavesExact 2 t = owns (c : Thread nD τ) (ms2 t) fullShare ((dats m 0 c).after 2 t) from by
      unfold Dat.leavesExact; rw [(idle2_false_iff t).mpr (Or.inr (by omega))], after2]
    rw [stAt_first m c t hz]
    unfold stepFirst firstO firstE firstA firstP; (try dsimp only)
    simp only [before2_zero m c t hz]
    rw [PhiS_castSucc m c t, PhiS_zero m c _ _ hz, PhiA_eq]
    iintro ⟨⟨⟨HE, HA, HP⟩, Hg⟩, Ho, ⟨%d0, H0⟩, ⟨%d1, H1⟩, ⟨%d2, H2⟩⟩
    iapply ((runFirst c (grid0.coords t) _ _ _ _ _ _ _ _ _ _ _ _ (kFirst t hz).1 (kFirst t hz).2.1 (kFirst t hz).2.2.1 (kFirst t hz).2.2.2 (iblk m c 0 t) (iblk m c 1 t)).2.2.2.2 Set.univ _)
    isplitl [H0]; · iexact H0
    isplitl [H1]; · iexact H1
    isplitl [H2]; · iexists _; iexact H2
    isplitl [HE]; · iexact HE
    isplitl [HA]; · iexact HA
    isplitl [HP]; · iexact HP
    iintro ⟨H0, H1, ⟨%e2, H2⟩, ⟨%eE, HE⟩, ⟨%eA, HA⟩, ⟨%eP, HP⟩⟩
    isplitl [HE HA HP Hg]
    · isplitl [HE HA HP]
      · isplitl [HE]
        · unfold owns; iexists _; isplitr
          swap; · iexact HE
          ipureintro; exact View.read_writes_of_cover _ _ _ _ _ (firstE_cover c _ _ _ _ _ _ _ _ _ _ _ _ _ _ _ _ _ _ _)
        isplitl [HA]
        · unfold owns; iexists _; isplitr
          swap; · iexact HA
          ipureintro; exact View.read_writes_of_cover _ _ _ _ _ (firstA_cover c _ _ _ _ _ _ _ _ _ _ _ _ _ _ _ _ _ _ _)
        unfold owns; iexists _; isplitr
        swap; · iexact HP
        ipureintro; exact View.read_writes_of_cover _ _ _ _ _ (firstP_cover c _ _ _ _ _ _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (firstO_cover c _ _ _ _ _ _ _ _ _ _ _ _ _ _ _ _ _ _ _)
  · by_cases h1 : t.val % 2 = 0
    · rw [Dat.leavesExact_idle (dats m 0 c) 2 t ((idle2_iff t).mpr ⟨h1, by omega⟩) (flush2_false t (by omega))]
      rw [stAt_upper m c t hz h1]
      unfold stepUpper upperA upperP; (try dsimp only)
      simp only [before2_pos m c t hz]
      rw [PhiS_castSucc m c t, PhiS_pos m c _ _ hz]
      iintro ⟨⟨⟨HE, HA, HP⟩, Hg⟩, Ho, ⟨%d0, H0⟩, ⟨%d1, H1⟩, ⟨%d2, H2⟩⟩
      iapply ((runUpper c (grid0.coords t) _ _ _ _ _ _ _ _ _ _ _ _ (kUpper t hz h1).1 (kUpper t hz h1).2.1 (kUpper t hz h1).2.2.1 (kUpper t hz h1).2.2.2 (iblk m c 0 t) (iblk m c 1 t) _).2.2 _ Set.univ _)
      isplitl [H0]; · iexact H0
      isplitl [H1]; · iexact H1
      isplitl [H2]; · iexact H2
      isplitl [HE]; · iexact HE
      isplitl [HA]; · iexists _; iexact HA
      isplitl [HP]; · iexists _; iexact HP
      iintro ⟨H0, H1, H2, HE, ⟨%eA, HA⟩, ⟨%eP, HP⟩⟩
      isplitl [HE HA HP Hg]
      · isplitl [HE HA HP]
        · isplitl [HE]; · iexact HE
          isplitl [HA]
          · unfold owns; iexists _; isplitr
            swap; · iexact HA
            ipureintro; exact View.read_writes_of_cover _ _ _ _ _ (upperA_cover c _ _ _ _ _ _ _ _ _ _ _ _ _ _ _ _ _ _ _ _)
          unfold owns; iexists _; isplitr
          swap; · iexact HP
          ipureintro; exact View.read_writes_of_cover _ _ _ _ _ (upperP_cover c _ _ _ _ _ _ _ _ _ _ _ _ _ _ _ _ _ _ _ _)
        iexact Hg
      isplitl [Ho]; · iexact Ho
      isplitl [H0]; · iexact H0
      isplitl [H1]; · iexact H1
      iexists d2; iexact H2
    · have h1' : t.val % 2 = 1 := by omega
      rw [show (dats m 0 c).leavesExact 2 t = owns (c : Thread nD τ) (ms2 t) fullShare ((dats m 0 c).after 2 t) from by
        unfold Dat.leavesExact; rw [(idle2_false_iff t).mpr (Or.inl h1')], after2]
      simp only [before2_pos m c t hz]
      rw [PhiS_castSucc m c t, PhiS_pos m c _ _ hz]
      by_cases h3 : t.val % 16 = 15
      · rw [stAt_last m c t h3]
        unfold stepLast lastO; (try dsimp only)
        iintro ⟨⟨⟨HE, HA, HP⟩, Hg⟩, Ho, ⟨%d0, H0⟩, ⟨%d1, H1⟩, ⟨%d2, H2⟩⟩
        iapply ((runLast c (grid0.coords t) _ _ _ _ _ _ _ _ _ _ _ _ (kLast t h3).1 (kLast t h3).2.1 (kLast t h3).2.2.1 (kLast t h3).2.2.2 (iblk m c 0 t) (iblk m c 1 t) _ _ _ _).2 Set.univ _)
        isplitl [H0]; · iexact H0
        isplitl [H1]; · iexact H1
        isplitl [H2]; · iexact H2
        isplitl [HE]; · iexact HE
        isplitl [HA]; · iexact HA
        isplitl [HP]; · iexact HP
        iintro ⟨H0, H1, ⟨%e2, H2⟩, HE, HA, HP⟩
        isplitl [HE HA HP Hg]
        · isplitl [HE HA HP]
          · isplitl [HE]; · iexact HE
            isplitl [HA]; · iexact HA
            iexact HP
          iexact Hg
        isplitl [Ho]; · iexact Ho
        isplitl [H0]; · iexact H0
        isplitl [H1]; · iexact H1
        unfold owns; iexists _; isplitr
        swap; · iexact H2
        ipureintro; exact View.read_writes_of_cover _ _ _ _ _ (lastO_cover c _ _ _ _ _ _ _ _ _ _ _ _ _ _ _ _ _ _ _ _ _ _ _)
      · rw [stAt_lower m c t h1' h3]
        unfold stepLower lowerO; (try dsimp only)
        iintro ⟨⟨⟨HE, HA, HP⟩, Hg⟩, Ho, ⟨%d0, H0⟩, ⟨%d1, H1⟩, ⟨%d2, H2⟩⟩
        iapply ((runLower c (grid0.coords t) _ _ _ _ _ _ _ _ _ _ _ _ (kLower t h1' h3).1 (kLower t h1' h3).2.1 (kLower t h1' h3).2.2.1 (kLower t h1' h3).2.2.2 (iblk m c 0 t) (iblk m c 1 t) _ _ _ _).2 Set.univ _)
        isplitl [H0]; · iexact H0
        isplitl [H1]; · iexact H1
        isplitl [H2]; · iexact H2
        isplitl [HE]; · iexact HE
        isplitl [HA]; · iexact HA
        isplitl [HP]; · iexact HP
        iintro ⟨H0, H1, ⟨%e2, H2⟩, HE, HA, HP⟩
        isplitl [HE HA HP Hg]
        · isplitl [HE HA HP]
          · isplitl [HE]; · iexact HE
            isplitl [HA]; · iexact HA
            iexact HP
          iexact Hg
        isplitl [Ho]; · iexact Ho
        isplitl [H0]; · iexact H0
        isplitl [H1]; · iexact H1
        unfold owns; iexists _; isplitr
        swap; · iexact H2
        ipureintro; exact View.read_writes_of_cover _ _ _ _ _ (lowerO_cover c _ _ _ _ _ _ _ _ _ _ _ _ _ _ _ _ _ _ _ _ _ _ _)

/-- The body obligation of the launch, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA_eq]
  iintro ⟨⟨HE, HA, HP⟩, Hg⟩
  isplitl [HE HA HP]
  · isplitl [HE]; · iexists _; iexact HE
    isplitl [HA]; · iexists _; iexact HA
    iexists _; iexact HP
  iexact Hg

/-! ## The run -/

set_option backward.isDefEq.respectTransparency.types false in
/-- Every weakly fair execution of the program terminates, the result array at what the data computes from the
    points' write-backs and every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Found.lean ====
/-
  What each kind of point leaves, spelt out.  Running the body found, for every buffer it rewrites, the list of its
  stores; read back, each is the stored value.  At the first point: zeros in the result's buffer, the cast of E, the
  cast of the block, and the block's product with the upper half of that cast.  At a later point with r = 0: the cast
  of the block and its product with the upper half of the kept cast.  At a point with r = 1: the result's upper rows
  and lower rows, each its old contents plus a product with the rectified hidden block; and at the last point the
  rectifier of that.
-/
import proofs.«120358_g26250840113511_retrytranche2_1766_24_alg».proof.Proof.Carried

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem off00 : (![0, 0] : Fin 2 → ℕ) = fun _ => 0 := by
  funext a; match a with | ⟨0, _⟩ => rfl | ⟨1, _⟩ => rfl

/-- The upper 5000 rows of a 10000-row array, and the lower 5000. -/
abbrev Rtop : Rect S10000x128 := Rect.unit (s := S10000x128) ![0, 0] S5000x128.size inb_S10000x128_S5000x128_0_0
abbrev Rbot : Rect S10000x128 := Rect.unit (s := S10000x128) ![5000, 0] S5000x128.size inb_S10000x128_S5000x128_5000_0

section
variable (c : Dev nD) (i : grid0.Coords) (arg2 : Memref sig .tc .vmem S5000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S5000x256 .bf16) (harg6 : arg6.IsWhole) (arg7 : Memref sig .tc .vmem S256x128 .f32) (harg7 : arg7.IsWhole)

theorem firstO_eq (hc0 : cFirst i) (hc1 : cUpper i) (hc2 : ¬cLower i) (hc3 : ¬cLast i) (x0 : Vec F S5000x256 .f32) (x1 : Vec F S10000x128 .f32) :
    firstO c i arg2 harg2 arg3 harg3 arg4 harg4 arg5 harg5 arg6 harg6 arg7 harg7 hc0 hc1 hc2 hc3 x0 x1 = k0_pay2 (F := F) := by
  unfold firstO
  rw [View.read_writes_junk_eq_canon]
  unfold runFirst
  dsimp only
  (try sl_unfold_words)
  rw [View.canon_unit_zero off00]

theorem firstE_eq (hc0 : cFirst i) (hc1 : cUpper i) (hc2 : ¬cLower i) (hc3 : ¬cLast i) (x0 : Vec F S5000x256 .f32) (x1 : Vec F S10000x128 .f32) :
    firstE c i arg2 harg2 arg3 harg3 arg4 harg4 arg5 harg5 arg6 harg6 arg7 harg7 hc0 hc1 hc2 hc3 x0 x1 = k0_pay1 x1 := by
  unfold firstE
  rw [View.read_writes_junk_eq_canon]
  unfold runFirst
  dsimp only
  (try sl_unfold_words)
  rw [View.canon_unit_zero off00]
  simp only [View.readAt_eq_ld, harg3.read_unread, View.ld_unit_zero (S := S10000x128) off00]

theorem firstA_eq (hc0 : cFirst i) (hc1 : cUpper i) (hc2 : ¬cLower i) (hc3 : ¬cLast i) (x0 : Vec F S5000x256 .f32) (x1 : Vec F S10000x128 .f32) :
    firstA c i arg2 harg2 arg3 harg3 arg4 harg4 arg5 harg5 arg6 harg6 arg7 harg7 hc0 hc1 hc2 hc3 x0 x1 = k0_pay4 x0 := by
  unfold firstA
  rw [View.read_writes_junk_eq_canon]
  unfold runFirst
  dsimp only
  (try sl_unfold_words)
  rw [View.canon_unit_zero off00]
  simp only [View.readAt_eq_ld, harg2.read_unread, View.ld_unit_zero (S := S5000x256) off00]

theorem firstP_eq (hc0 : cFirst i) (hc1 : cUpper i) (hc2 : ¬cLower i) (hc3 : ¬cLast i) (x0 : Vec F S5000x256 .f32) (x1 : Vec F S10000x128 .f32) :
    firstP c i arg2 harg2 arg3 harg3 arg4 harg4 arg5 harg5 arg6 harg6 arg7 harg7 hc0 hc1 hc2 hc3 x0 x1 = k0_pay5 x0 (View.ld (k0_pay1 x1) Rtop) := by
  unfold firstP
  rw [View.read_writes_junk_eq_canon]
  unfold runFirst
  dsimp only
  sl_unfold_words
  rw [View.canon_unit_zero off00, View.readCov_eq_canon', View.canon_unit_zero off00]
  simp only [View.readAt_eq_ld, harg2.read_unread, harg3.read_unread, View.ld_unit_zero (S := S5000x256) off00, View.ld_unit_zero (S := S10000x128) off00]

theorem upperA_eq (hc0 : ¬cFirst i) (hc1 : cUpper i) (hc2 : ¬cLower i) (hc3 : ¬cLast i) (x0 : Vec F S5000x256 .f32) (x1 : Vec F S10000x128 .f32) (xe : Vec F S10000x128 .bf16) :
    upperA c i arg2 harg2 arg3 harg3 arg4 harg4 arg5 harg5 arg6 harg6 arg7 harg7 hc0 hc1 hc2 hc3 x0 x1 xe = k0_pay4 x0 := by
  unfold upperA
  rw [View.read_writes_junk_eq_canon]
  unfold runUpper
  dsimp only
  (try sl_unfold_words)
  rw [View.canon_unit_zero off00]
  simp only [View.readAt_eq_ld, harg2.read_unread, View.ld_unit_zero (S := S5000x256) off00]

theorem upperP_eq (hc0 : ¬cFirst i) (hc1 : cUpper i) (hc2 : ¬cLower i) (hc3 : ¬cLast i) (x0 : Vec F S5000x256 .f32) (x1 : Vec F S10000x128 .f32) (xe : Vec F S10000x128 .bf16) :
    upperP c i arg2 harg2 arg3 harg3 arg4 harg4 arg5 harg5 arg6 harg6 arg7 harg7 hc0 hc1 hc2 hc3 x0 x1 xe = k0_pay5 x0 (View.ld xe Rtop) := by
  unfold upperP
  rw [View.read_writes_junk_eq_canon]
  unfold runUpper
  dsimp only
  (try sl_unfold_words)
  rw [View.canon_unit_zero off00]
  simp only [View.readAt_eq_ld, harg2.read_unread, harg5.read_unread, View.ld_unit_zero (S := S5000x256) off00]

/-- The result's buffer after a point with r = 1, as its two stores leave it. -/
def twoHalves (x0 : Vec F S5000x256 .f32) (xo : Vec F S10000x128 .f32) (xe : Vec F S10000x128 .bf16) (xa : Vec F S5000x256 .bf16) (xp : Vec F S256x128 .f32) :
    Vec F S10000x128 .f32 :=
  View.canon [(⟨Rbot, k0_pay8 x0 xp (View.ld xe Rbot) (View.ld xo Rbot)⟩ : View.Piece (Elt F) S10000x128 .f32),
    ⟨Rtop, k0_pay7 x0 xp (View.ld xe Rbot) (View.ld xo Rtop) xa⟩]

theorem lowerO_eq (hc0 : ¬cFirst i) (hc1 : ¬cUpper i) (hc2 : cLower i) (hc3 : ¬cLast i) (x0 : Vec F S5000x256 .f32) (x1 : Vec F S10000x128 .f32) (xo : Vec F S10000x128 .f32) (xe : Vec F S10000x128 .bf16) (xa : Vec F S5000x256 .bf16) (xp : Vec F S256x128 .f32) :
    lowerO c i arg2 harg2 arg3 harg3 arg4 harg4 arg5 harg5 arg6 harg6 arg7 harg7 hc0 hc1 hc2 hc3 x0 x1 xo xe xa xp = twoHalves x0 xo xe xa xp := by
  unfold lowerO twoHalves
  rw [View.read_writes_junk_eq_canon]
  unfold runLower
  dsimp only
  (try sl_unfold_words)
  simp only [View.readAt_eq_ld, harg2.read_unread, harg4.read_unread, harg5.read_unread, harg6.read_unread, harg7.read_unread,
    View.ld_unit_zero (S := S5000x256) off00, View.ld_unit_zero (S := S256x128) off00]

theorem lastO_eq (hc0 : ¬cFirst i) (hc1 : ¬cUpper i) (hc2 : cLower i) (hc3 : cLast i) (x0 : Vec F S5000x256 .f32) (x1 : Vec F S10000x128 .f32) (xo : Vec F S10000x128 .f32) (xe : Vec F S10000x128 .bf16) (xa : Vec F S5000x256 .bf16) (xp : Vec F S256x128 .f32) :
    lastO c i arg2 harg2 arg3 harg3 arg4 harg4 arg5 harg5 arg6 harg6 arg7 harg7 hc0 hc1 hc2 hc3 x0 x1 xo xe xa xp = k0_pay9 (twoHalves x0 xo xe xa xp) := by
  unfold lastO twoHalves
  rw [View.read_writes_junk_eq_canon]
  unfold runLast
  dsimp only
  sl_unfold_words
  rw [View.canon_cons_unit_zero off00, View.readCov_eq_canon']
  simp only [View.readAt_eq_ld, harg2.read_unread, harg4.read_unread, harg5.read_unread, harg6.read_unread, harg7.read_unread,
    View.ld_unit_zero (S := S5000x256) off00, View.ld_unit_zero (S := S256x128) off00]
  refine congrArg k0_pay9 ?_
  exact View.ld_unit_zero (S := S10000x128) off00 inb_S10000x128_S10000x128_0_0 _

end

end Cert.KernelIdeal.Body

end
-- ==== Proof.Steps.lean ====
/-
  One point's effect, as values.  The first point leaves zeros, the cast of E, the cast of its block and the block's
  product with the upper half of that cast.  A later point with r = 0 leaves the result and the cast of E alone and
  rewrites the other two from its block.  A point with r = 1 leaves the three kept buffers alone and rewrites the
  result half by half; the last point rectifies that.
-/
import proofs.«120358_g26250840113511_retrytranche2_1766_24_alg».proof.Proof.Found

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (c : Dev nD)

/-! ## The state one point later -/

theorem stAt_succ_upper (n : ℕ) (hn : n + 1 < cfg0.N) (h1 : (n + 1) % 2 = 0) :
    stAt m c (n + 1) hn = stepUpper m c ⟨n + 1, hn⟩ (Nat.succ_ne_zero n) h1 (stAt m c n (Nat.lt_of_succ_lt hn)) :=
  (dif_pos h1).trans rfl

theorem stAt_succ_last (n : ℕ) (hn : n + 1 < cfg0.N) (h1 : ¬(n + 1) % 2 = 0) (h3 : (n + 1) % 16 = 15) :
    stAt m c (n + 1) hn = stepLast m c ⟨n + 1, hn⟩ h3 (stAt m c n (Nat.lt_of_succ_lt hn)) :=
  (dif_neg h1).trans ((dif_pos h3).trans rfl)

theorem stAt_succ_lower (n : ℕ) (hn : n + 1 < cfg0.N) (h1 : ¬(n + 1) % 2 = 0) (h3 : ¬(n + 1) % 16 = 15) :
    stAt m c (n + 1) hn = stepLower m c ⟨n + 1, hn⟩ (by show (n + 1) % 2 = 1; omega) h3 (stAt m c n (Nat.lt_of_succ_lt hn)) :=
  (dif_neg h1).trans ((dif_neg h3).trans rfl)

/-! ## What each step leaves -/

section
variable (t : Fin cfg0.N)

theorem stepFirst_O (hz : t.val = 0) : (stepFirst m c t hz).1 = k0_pay2 (F := F) := by
  unfold stepFirst; dsimp only; exact firstO_eq c (grid0.coords t) (ms0 t) (hs0 t) (ms1 t) (hs1 t) (ms2 t) (hs2 t) scE (Memref.isWhole_whole _) scA (Memref.isWhole_whole _) scP (Memref.isWhole_whole _) (kFirst t hz).1 (kFirst t hz).2.1 (kFirst t hz).2.2.1 (kFirst t hz).2.2.2 (iblk m c 0 t) (iblk m c 1 t)
theorem stepFirst_E (hz : t.val = 0) : (stepFirst m c t hz).2.1 = k0_pay1 (iblk m c 1 t) := by
  unfold stepFirst; dsimp only; exact firstE_eq c (grid0.coords t) (ms0 t) (hs0 t) (ms1 t) (hs1 t) (ms2 t) (hs2 t) scE (Memref.isWhole_whole _) scA (Memref.isWhole_whole _) scP (Memref.isWhole_whole _) (kFirst t hz).1 (kFirst t hz).2.1 (kFirst t hz).2.2.1 (kFirst t hz).2.2.2 (iblk m c 0 t) (iblk m c 1 t)
theorem stepFirst_A (hz : t.val = 0) : (stepFirst m c t hz).2.2.1 = k0_pay4 (iblk m c 0 t) := by
  unfold stepFirst; dsimp only; exact firstA_eq c (grid0.coords t) (ms0 t) (hs0 t) (ms1 t) (hs1 t) (ms2 t) (hs2 t) scE (Memref.isWhole_whole _) scA (Memref.isWhole_whole _) scP (Memref.isWhole_whole _) (kFirst t hz).1 (kFirst t hz).2.1 (kFirst t hz).2.2.1 (kFirst t hz).2.2.2 (iblk m c 0 t) (iblk m c 1 t)
theorem stepFirst_P (hz : t.val = 0) :
    (stepFirst m c t hz).2.2.2 = k0_pay5 (iblk m c 0 t) (View.ld (k0_pay1 (iblk m c 1 t)) Rtop) := by
  unfold stepFirst; dsimp only; exact firstP_eq c (grid0.coords t) (ms0 t) (hs0 t) (ms1 t) (hs1 t) (ms2 t) (hs2 t) scE (Memref.isWhole_whole _) scA (Memref.isWhole_whole _) scP (Memref.isWhole_whole _) (kFirst t hz).1 (kFirst t hz).2.1 (kFirst t hz).2.2.1 (kFirst t hz).2.2.2 (iblk m c 0 t) (iblk m c 1 t)

theorem stepUpper_O (hz : t.val ≠ 0) (h1 : t.val % 2 = 0) (s : St F) : (stepUpper m c t hz h1 s).1 = s.1 := by unfold stepUpper; rfl
theorem stepUpper_E (hz : t.val ≠ 0) (h1 : t.val % 2 = 0) (s : St F) : (stepUpper m c t hz h1 s).2.1 = s.2.1 := by unfold stepUpper; rfl
theorem stepUpper_A (hz : t.val ≠ 0) (h1 : t.val % 2 = 0) (s : St F) :
    (stepUpper m c t hz h1 s).2.2.1 = k0_pay4 (iblk m c 0 t) := by
  unfold stepUpper; dsimp only; exact upperA_eq c (grid0.coords t) (ms0 t) (hs0 t) (ms1 t) (hs1 t) (ms2 t) (hs2 t) scE (Memref.isWhole_whole _) scA (Memref.isWhole_whole _) scP (Memref.isWhole_whole _) (kUpper t hz h1).1 (kUpper t hz h1).2.1 (kUpper t hz h1).2.2.1 (kUpper t hz h1).2.2.2 (iblk m c 0 t) (iblk m c 1 t) s.2.1
theorem stepUpper_P (hz : t.val ≠ 0) (h1 : t.val % 2 = 0) (s : St F) :
    (stepUpper m c t hz h1 s).2.2.2 = k0_pay5 (iblk m c 0 t) (View.ld s.2.1 Rtop) := by
  unfold stepUpper; dsimp only; exact upperP_eq c (grid0.coords t) (ms0 t) (hs0 t) (ms1 t) (hs1 t) (ms2 t) (hs2 t) scE (Memref.isWhole_whole _) scA (Memref.isWhole_whole _) scP (Memref.isWhole_whole _) (kUpper t hz h1).1 (kUpper t hz h1).2.1 (kUpper t hz h1).2.2.1 (kUpper t hz h1).2.2.2 (iblk m c 0 t) (iblk m c 1 t) s.2.1

theorem stepLower_O (h1 : t.val % 2 = 1) (h3 : t.val % 16 ≠ 15) (s : St F) :
    (stepLower m c t h1 h3 s).1 = twoHalves (iblk m c 0 t) s.1 s.2.1 s.2.2.1 s.2.2.2 := by
  unfold stepLower; dsimp only; exact lowerO_eq c (grid0.coords t) (ms0 t) (hs0 t) (ms1 t) (hs1 t) (ms2 t) (hs2 t) scE (Memref.isWhole_whole _) scA (Memref.isWhole_whole _) scP (Memref.isWhole_whole _) (kLower t h1 h3).1 (kLower t h1 h3).2.1 (kLower t h1 h3).2.2.1 (kLower t h1 h3).2.2.2 (iblk m c 0 t) (iblk m c 1 t) s.1 s.2.1 s.2.2.1 s.2.2.2
theorem stepLower_E (h1 : t.val % 2 = 1) (h3 : t.val % 16 ≠ 15) (s : St F) : (stepLower m c t h1 h3 s).2.1 = s.2.1 := by unfold stepLower; rfl

theorem stepLast_O (h3 : t.val % 16 = 15) (s : St F) :
    (stepLast m c t h3 s).1 = k0_pay9 (twoHalves (iblk m c 0 t) s.1 s.2.1 s.2.2.1 s.2.2.2) := by
  unfold stepLast; dsimp only; exact lastO_eq c (grid0.coords t) (ms0 t) (hs0 t) (ms1 t) (hs1 t) (ms2 t) (hs2 t) scE (Memref.isWhole_whole _) scA (Memref.isWhole_whole _) scP (Memref.isWhole_whole _) (kLast t h3).1 (kLast t h3).2.1 (kLast t h3).2.2.1 (kLast t h3).2.2.2 (iblk m c 0 t) (iblk m c 1 t) s.1 s.2.1 s.2.2.1 s.2.2.2
theorem stepLast_E (h3 : t.val % 16 = 15) (s : St F) : (stepLast m c t h3 s).2.1 = s.2.1 := by unfold stepLast; rfl

end

end Cert.KernelIdeal.Body

end
-- ==== Proof.LeakySpec.lean ====
/-
  The layer both programs compute, stated with no program in sight.

  With A an array of 10000 rows and 2048 columns and E one of 10000 rows and 128 columns, over the extended reals:
  the hidden array is  hid (e, j) = leaky (sum over n of A (n, e) · E (n, j)),  that is leaky (Aᵀ · E), and the
  result is  out (i, j) = leaky (sum over e of A (i, e) · hid (e, j)),  that is leaky (A · hid).  The rectifier
  leaky is the identity on [0, +inf] and multiplication by one half below zero.
-/
import Idealize.ShloMosaic.PureOps.Ideal.Laws
import Idealize.ShloMosaic.Lib.ValueIdx

noncomputable section

open scoped BigOperators

namespace Cert.Layer

open Idealize.ShloMosaic Idealize.ShloMosaic.ValueIdx

/-- The shape of A: 10000 rows, 2048 columns. -/
abbrev SA : Shape := ⟨2, ![10000, 2048]⟩
/-- The shape of E and of the result: 10000 rows, 128 columns. -/
abbrev SE : Shape := ⟨2, ![10000, 128]⟩

/-- The slope below zero: the single-precision word of one half. -/
def half : EReal := Ideal.ofBits .f32 0x3F000000#32

/-- The leaky rectifier on the extended reals. -/
def leaky (x : EReal) : EReal := if 0 ≤ x then x else half * x

/-- Entry (e, j) of the hidden array leaky (Aᵀ · E). -/
def hid (A : SA.Idx → EReal) (E : SE.Idx → EReal) (e : Fin 2048) (j : Fin 128) : EReal :=
  leaky (∑ n : Fin 10000, A (ix2 n e) * E (ix2 n j))

/-- Entry (i, j) of the result leaky (A · hid). -/
def outAt (A : SA.Idx → EReal) (E : SE.Idx → EReal) (i : Fin 10000) (j : Fin 128) : EReal :=
  leaky (∑ e : Fin 2048, A (ix2 i e) * hid A E e j)

/-- The result as an array. -/
def out (A : SA.Idx → EReal) (E : SE.Idx → EReal) : SE.Idx → EReal :=
  fun i => outAt A E (i 0) (i 1)

theorem out_ix2 (A : SA.Idx → EReal) (E : SE.Idx → EReal) (i : Fin 10000) (j : Fin 128) :
    out A E (ix2 i j) = outAt A E i j := rfl

/-- Selecting x where x ≥ 0 and one half of x elsewhere is the rectifier. -/
theorem select_ge_zero (x : EReal) :
    Scalar.select (Ideal.cmp .oge x (Ideal.ofBits .f32 0x00000000#32)) x (Ideal.ofBits .f32 0x3F000000#32 * x) = leaky x := by
  unfold leaky half Scalar.select Ideal.cmp
  rw [Ideal.ofBits_zero_f32]
  by_cases hz : (0 : EReal) ≤ x
  · simp [hz]
  · simp [hz]

end Cert.Layer

end
-- ==== Proof.BlockSums.lean ====
/-
  Sums cut into blocks, over the extended reals, by the commutativity and associativity of addition alone.

  The 10000 rows are the first 5000 (top) and the last 5000 (bot): a sum over all rows is the sum over the top rows
  plus the sum over the bottom rows. The 2048 columns are eight blocks of 256, column e of block k being 256 k + e:
  the sum of the first 256 (k + 1) terms is the sum of the first 256 k plus the sum over block k, the empty sum is
  zero, and the first 2048 terms are all of them.
-/
import proofs.«120358_g26250840113511_retrytranche2_1766_24_alg».proof.Proof.LeakySpec
import Idealize.ShloMosaic.Lib.ValueIdx
import Mathlib.Algebra.BigOperators.Fin
import Mathlib.Algebra.BigOperators.Group.Finset.Basic

noncomputable section

open scoped BigOperators

namespace Cert.Layer

open Idealize.ShloMosaic Idealize.ShloMosaic.ValueIdx

/-- Row n of the first 5000 rows. -/
def top (n : Fin 5000) : Fin 10000 := ⟨n.val, by omega⟩
/-- Row n of the last 5000 rows. -/
def bot (n : Fin 5000) : Fin 10000 := ⟨5000 + n.val, by omega⟩
/-- Column e of the k-th block of 256 columns. -/
def col (k : Fin 8) (e : Fin 256) : Fin 2048 := ⟨256 * k.val + e.val, by omega⟩

/-- A sum over the 10000 rows is the sum over the first 5000 plus the sum over the last 5000. -/
theorem sum_halves {M : Type*} [AddCommMonoid M] (f : Fin 10000 → M) :
    (∑ n : Fin 5000, f (top n)) + (∑ n : Fin 5000, f (bot n)) = ∑ n : Fin 10000, f n :=
  (Fin.sum_univ_add (a := 5000) (b := 5000) f).symm

/-- The hidden array's entry from the two halves of its sum. -/
theorem hid_halves (A : SA.Idx → EReal) (E : SE.Idx → EReal) (k : Fin 8) (e : Fin 256) (j : Fin 128) :
    leaky ((∑ n : Fin 5000, A (ix2 (top n) (col k e)) * E (ix2 (top n) j))
      + ∑ n : Fin 5000, A (ix2 (bot n) (col k e)) * E (ix2 (bot n) j)) = hid A E (col k e) j :=
  congrArg leaky (sum_halves fun n : Fin 10000 => A (ix2 n (col k e)) * E (ix2 n j))

/-- A finite family read at a natural number: its entry there, zero past its length. -/
def readAt {N : ℕ} (g : Fin N → EReal) (d : ℕ) : EReal := if h : d < N then g ⟨d, h⟩ else 0

/-- Read at the number of one of its indices, the family is its entry there. -/
theorem readAt_val {N : ℕ} (g : Fin N → EReal) (x : Fin N) : readAt g x.val = g x := by
  unfold readAt
  rw [dif_pos x.isLt]

/-- The sum of the first N numbers' readings is the family's sum. -/
theorem sum_range_readAt {N : ℕ} (g : Fin N → EReal) : ∑ d ∈ Finset.range N, readAt g d = ∑ x : Fin N, g x := by
  rw [Finset.sum_range]
  exact Finset.sum_congr rfl fun x _ => readAt_val g x

/-- The first 256 · kk terms of the sum that the result's entry (i, j) is the rectifier of: the terms
    A (i, e) · hid (e, j), in the order of e. -/
def acc (A : SA.Idx → EReal) (E : SE.Idx → EReal) (kk : ℕ) (i : Fin 10000) (j : Fin 128) : EReal :=
  ∑ d ∈ Finset.range (256 * kk), readAt (fun e : Fin 2048 => A (ix2 i e) * hid A E e j) d

/-- No term: zero. -/
theorem acc_zero (A : SA.Idx → EReal) (E : SE.Idx → EReal) (i : Fin 10000) (j : Fin 128) : acc A E 0 i j = 0 := by
  unfold acc
  rw [Nat.mul_zero, Finset.range_zero, Finset.sum_empty]

/-- The first k blocks' terms plus block k's are the first k + 1 blocks'. -/
theorem acc_succ (A : SA.Idx → EReal) (E : SE.Idx → EReal) (k : Fin 8) (i : Fin 10000) (j : Fin 128) :
    acc A E k.val i j + ∑ e : Fin 256, A (ix2 i (col k e)) * hid A E (col k e) j = acc A E (k.val + 1) i j := by
  unfold acc
  rw [Nat.mul_add_one, Finset.sum_range_add]
  refine congrArg (_ + ·) ?_
  rw [Finset.sum_range]
  exact Finset.sum_congr rfl fun e _ =>
    (readAt_val (fun e : Fin 2048 => A (ix2 i e) * hid A E e j) (col k e)).symm

/-- All eight blocks' terms are the whole sum: its rectifier is the result's entry. -/
theorem acc_eight (A : SA.Idx → EReal) (E : SE.Idx → EReal) (i : Fin 10000) (j : Fin 128) :
    leaky (acc A E 8 i j) = outAt A E i j := by
  unfold acc outAt
  rw [show 256 * 8 = 2048 from rfl, sum_range_readAt]

/-- Block 0's terms added to zero are the first block's. -/
theorem zero_add_block (A : SA.Idx → EReal) (E : SE.Idx → EReal) (i : Fin 10000) (j : Fin 128) :
    (0 : EReal) + ∑ e : Fin 256, A (ix2 i (col 0 e)) * hid A E (col 0 e) j = acc A E 1 i j := by
  have h := acc_succ A E 0 i j
  rw [show ((0 : Fin 8).val) = 0 from rfl, acc_zero] at h
  exact h

end Cert.Layer

end
-- ==== Proof.Halves.lean ====
/-
  Reading through the two halves.  The upper 5000 rows of a 10000-row array sit at rows p, the lower at rows
  5000 + p; a value loaded through either half is the array's at those rows, and the result's buffer after a point
  with r = 1, stored half by half, reads at an upper row as its first store's value and at a lower row as its second's.
-/
import proofs.«120358_g26250840113511_retrytranche2_1766_24_alg».proof.Proof.Found
import proofs.«120358_g26250840113511_retrytranche2_1766_24_alg».proof.Proof.BlockSums

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Layer

theorem Rtop_idx (p : Fin 5000) (j : Fin 128) : Rtop.idx (ix2 p j) = ix2 (top p) j := by
  funext a
  match a with
  | ⟨0, _⟩ => exact Fin.ext (by show 0 + 1 * p.val = p.val; omega)
  | ⟨1, _⟩ => exact Fin.ext (by show 0 + 1 * j.val = j.val; omega)

theorem Rbot_idx (p : Fin 5000) (j : Fin 128) : Rbot.idx (ix2 p j) = ix2 (bot p) j := by
  funext a
  match a with
  | ⟨0, _⟩ => exact Fin.ext (by show 5000 + 1 * p.val = 5000 + p.val; omega)
  | ⟨1, _⟩ => exact Fin.ext (by show 0 + 1 * j.val = j.val; omega)

theorem ld_top {e : EltTy} (X : Vec F S10000x128 e) (p : Fin 5000) (j : Fin 128) :
    View.ld X Rtop (ix2 p j) = X (ix2 (top p) j) := by
  show X (Rtop.idx (ix2 p j)) = _
  rw [Rtop_idx]

theorem ld_bot {e : EltTy} (X : Vec F S10000x128 e) (p : Fin 5000) (j : Fin 128) :
    View.ld X Rbot (ix2 p j) = X (ix2 (bot p) j) := by
  show X (Rbot.idx (ix2 p j)) = _
  rw [Rbot_idx]

theorem top_not_mem_Rbot (p : Fin 5000) (j : Fin 128) : (ix2 (top p) j : S10000x128.Idx) ∉ Rbot.set := by
  rw [Rect.mem_set_unit]
  intro h
  have h0 := (h ⟨0, by decide⟩).1
  have : (5000 : ℕ) ≤ p.val := h0
  omega

variable (x0 : Vec F S5000x256 .f32) (xo : Vec F S10000x128 .f32) (xe : Vec F S10000x128 .bf16) (xa : Vec F S5000x256 .bf16) (xp : Vec F S256x128 .f32)

/-- At a lower row the result's buffer holds the second store's value. -/
theorem twoHalves_bot (p : Fin 5000) (j : Fin 128) :
    twoHalves x0 xo xe xa xp (ix2 (bot p) j) = k0_pay8 x0 xp (View.ld xe Rbot) (View.ld xo Rbot) (ix2 p j) := by
  unfold twoHalves
  rw [← Rbot_idx p j]
  exact View.canon_cons_emb Rbot _ _ (ix2 p j)

/-- At an upper row it holds the first store's value. -/
theorem twoHalves_top (p : Fin 5000) (j : Fin 128) :
    twoHalves x0 xo xe xa xp (ix2 (top p) j) = k0_pay7 x0 xp (View.ld xe Rbot) (View.ld xo Rtop) xa (ix2 p j) := by
  unfold twoHalves
  have hnm : (ix2 (top p) j : S10000x128.Idx) ∉ (⟨Rbot, k0_pay8 x0 xp (View.ld xe Rbot) (View.ld xo Rbot)⟩ : View.Piece (Elt F) S10000x128 .f32).1.set :=
    top_not_mem_Rbot p j
  refine (View.canon_cons_of_not_mem _ _ hnm).trans ?_
  exact (congrArg (View.canon _) (Rtop_idx p j).symm).trans (View.canon_cons_emb Rtop _ _ (ix2 p j))

/-- Every row is an upper or a lower one. -/
theorem row_cases (i : Fin 10000) : (∃ p : Fin 5000, i = top p) ∨ (∃ p : Fin 5000, i = bot p) := by
  by_cases h : i.val < 5000
  · exact Or.inl ⟨⟨i.val, h⟩, Fin.ext rfl⟩
  · exact Or.inr ⟨⟨i.val - 5000, by have := i.isLt; omega⟩, Fin.ext (by show i.val = 5000 + (i.val - 5000); omega)⟩

end Cert.KernelIdeal.Body

end
-- ==== Proof.BlockReads.lean ====
/-
  The two input windows' blocks, read by coordinates.

  The grid is walked in the order t = 2 k + r. At point t the first window hands the body rows 5000 r … 5000 r + 4999
  and columns 256 k … 256 k + 255 of A, with r = t mod 2 and k = t div 2: entry (p, e) of the block is entry
  (5000 r + p, 256 k + e) of A. The second window's block is all of E at every point.
-/
import proofs.«120358_g26250840113511_retrytranche2_1766_24_alg».proof.Proof.Gen.KernelIdeal.Frame
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-- The grid has sixteen points. -/
theorem point_lt (t : Fin cfg0.N) : t.val < 16 := lt_of_lt_of_eq t.isLt (show cfg0.N = 16 from N_0)

/-- The first window's block index at point t: the row half t mod 2, the column block t div 2. -/
theorem index0_facts : ∀ t : Fin cfg0.N, win0_0.index t (0 : Fin 2) = t.val % 2 ∧ win0_0.index t (1 : Fin 2) = t.val / 2 :=
  (by decide +kernel : ∀ t : Fin grid0.N, win0_0.index t (0 : Fin 2) = t.val % 2 ∧ win0_0.index t (1 : Fin 2) = t.val / 2)

/-- The second window's block index is zero on both axes at every point. -/
theorem index1_facts : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Entry (p, e) of the first window's block at point t is entry (5000 (t mod 2) + p, 256 (t div 2) + e) of A. -/
theorem iblk0_apply (c : Dev nD) (t : Fin cfg0.N) (p : Fin 5000) (e : Fin 256) :
    iblk m c 0 t (ix2 p e)
      = V m c main_arg0 (ix2 (⟨5000 * (t.val % 2) + p.val, by have := point_lt t; omega⟩ : Fin 10000)
          (⟨256 * (t.val / 2) + e.val, by have := point_lt t; omega⟩ : Fin 2048)) := by
  unfold iblk
  show V m c main_arg0 (((cfg0.win 0).blk t).view.emb (ix2 p e)) = V m c main_arg0 _
  refine congrArg (V m c main_arg0) ?_
  obtain ⟨e0, e1⟩ := index0_facts t
  funext a; apply Fin.ext
  match a with
  | ⟨0, _⟩ =>
    show win0_0.index t (0 : Fin 2) * 5000 + 1 * p.val = 5000 * (t.val % 2) + p.val
    rw [e0]; omega
  | ⟨1, _⟩ =>
    show win0_0.index t (1 : Fin 2) * 256 + 1 * e.val = 256 * (t.val / 2) + e.val
    rw [e1]; omega

/-- Entry (i, j) of the second window's block, at any point, is entry (i, j) of E. -/
theorem iblk1_apply (c : Dev nD) (t : Fin cfg0.N) (i : Fin 10000) (j : Fin 128) :
    iblk m c 1 t (ix2 i j) = V m c main_arg1 (ix2 i j) := by
  unfold iblk
  show V m c main_arg1 (((cfg0.win 1).blk t).view.emb (ix2 i j)) = V m c main_arg1 _
  refine congrArg (V m c main_arg1) ?_
  obtain ⟨e0, e1⟩ := index1_facts t
  funext a; apply Fin.ext
  match a with
  | ⟨0, _⟩ =>
    show win0_1.index t (0 : Fin 2) * 10000 + 1 * i.val = i.val
    rw [e0]; omega
  | ⟨1, _⟩ =>
    show win0_1.index t (1 : Fin 2) * 128 + 1 * j.val = j.val
    rw [e1]; omega

end Cert.KernelIdeal.Body

end
-- ==== Proof.Payloads.lean ====
/-
  The kernel body's arithmetic, read entry by entry at the extended reals.

  There a change of format and a shape cast to the same shape are the identity, a broadcast constant reads the
  constant, and a tile product into the zero accumulator read at an entry is the sum over the contracted coordinate
  of the products of the operands' entries: for the product that contracts the rows of both operands,
  out (e, j) = Σ_n lhs (n, e) · rhs (n, j); for the plain one, out (p, j) = Σ_e lhs (p, e) · rhs (e, j). The
  selection between x and one half of x by the comparison x ≥ 0 is the rectifier.
-/
import proofs.«120358_g26250840113511_retrytranche2_1766_24_alg».proof.Proof.Gen.KernelIdeal.Skeleton
import proofs.«120358_g26250840113511_retrytranche2_1766_24_alg».proof.Proof.LeakySpec
import Idealize.ShloMosaic.Lib.StackMember

noncomputable section

open scoped BigOperators

namespace Cert.KernelIdeal.Pay

open Cert.KernelIdeal Cert.KernelIdeal.Gen Idealize.ShloMosaic Idealize.ShloMosaic.ValueIdx Idealize.ShloMosaic.StackMember

/-! ## The two tile products at an entry -/

/-- The product of a k×m by a k×n array that contracts the rows of both (the first transposed, then the plain
    product), into the zero accumulator, at (a, b): the sum over the row c of lhs (c, a) · rhs (c, b). -/
theorem matmul_zero_rows_apply {m k n : Nat} {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (a : Fin m) (b : Fin n) :
    FloatOps.matmul (⟨[0], [0], [1], [1], [], [], w⟩ : DotDims _ _ _) prec A B (constant ⟨2, ![m, n]⟩ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val
    (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The plain product of an m×k by a k×n array into the zero accumulator, at (a, b): the sum over c of
    lhs (a, c) · rhs (c, b). -/
theorem matmul_zero_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Ideal.dotGeneral_apply (DotDims.plain m k n) prec .single A B]
  exact dotGeneral_plain_apply prec A B a b

/-- The body's first dimension numbers contract the rows of both operands. -/
theorem dotRows_eq : dot_S5000x256_S5000x128_S256x128_0_0_1_1_n_n
    = (⟨[0], [0], [1], [1], [], [], dot_S5000x256_S5000x128_S256x128_0_0_1_1_n_n_wf⟩ : DotDims _ _ _) := rfl

/-- Its second are the plain ones. -/
theorem dotPlain_eq : dot_S5000x256_S256x128_S5000x128_1_0_0_1_n_n = DotDims.plain 5000 256 128 := rfl

/-! ## The payloads -/

theorem pay1_eq (v18 : Vec Ideal S10000x128 .f32) (i : Fin 10000) (j : Fin 128) :
    (k0_pay1 (F := Ideal) v18) (ix2 i j) = v18 (ix2 i j) := by
  unfold k0_pay1
  rw [shapeCast_self]
  rfl

theorem pay2_eq (i : Fin 10000) (j : Fin 128) : (k0_pay2 (F := Ideal)) (ix2 i j) = 0 := by
  unfold k0_pay2
  exact Ideal.ofBits_zero_f32

theorem pay3_eq (v5 : Vec Ideal S5000x256 .f32) (p : Fin 5000) (e : Fin 256) :
    k0_pay3 (F := Ideal) v5 (ix2 p e) = v5 (ix2 p e) := rfl

theorem pay4_eq (v5 : Vec Ideal S5000x256 .f32) (p : Fin 5000) (e : Fin 256) :
    k0_pay4 (F := Ideal) v5 (ix2 p e) = v5 (ix2 p e) := by
  unfold k0_pay4
  rw [shapeCast_self]
  rfl

theorem pay5_eq (v5 : Vec Ideal S5000x256 .f32) (v21 : Vec Ideal S5000x128 .bf16) (e : Fin 256) (j : Fin 128) :
    k0_pay5 (F := Ideal) v5 v21 (ix2 e j) = ∑ n : Fin 5000, v5 (ix2 n e) * v21 (ix2 n j) := by
  unfold k0_pay5
  rw [shapeCast_self, dotRows_eq]
  exact matmul_zero_rows_apply _ none (k0_pay3 (F := Ideal) v5) v21 e j

theorem pay6_eq (v5 : Vec Ideal S5000x256 .f32) (v18 : Vec Ideal S256x128 .f32) (v19 : Vec Ideal S5000x128 .bf16)
    (e : Fin 256) (j : Fin 128) :
    k0_pay6 (F := Ideal) v5 v18 v19 (ix2 e j)
      = Cert.Layer.leaky (v18 (ix2 e j) + ∑ n : Fin 5000, v5 (ix2 n e) * v19 (ix2 n j)) := by
  have h : FloatOps.matmul (φ₁ := .bf16) (φ₂ := .bf16)
      (⟨[0], [0], [1], [1], [], [], dot_S5000x256_S5000x128_S256x128_0_0_1_1_n_n_wf⟩ : DotDims _ _ _) none
      (k0_pay3 (F := Ideal) v5) v19 (constant S256x128 .f32 0x00000000#32) (ix2 e j)
        = ∑ n : Fin 5000, v5 (ix2 n e) * v19 (ix2 n j) :=
    matmul_zero_rows_apply (φ₁ := .bf16) (φ₂ := .bf16) _ none (k0_pay3 (F := Ideal) v5) v19 e j
  unfold k0_pay6
  rw [dotRows_eq, ← h]
  exact Cert.Layer.select_ge_zero _

theorem pay7_eq (v5 : Vec Ideal S5000x256 .f32) (v18 : Vec Ideal S256x128 .f32) (v19 : Vec Ideal S5000x128 .bf16)
    (v28 : Vec Ideal S5000x128 .f32) (v30 : Vec Ideal S5000x256 .bf16) (p : Fin 5000) (j : Fin 128) :
    k0_pay7 (F := Ideal) v5 v18 v19 v28 v30 (ix2 p j)
      = v28 (ix2 p j) + ∑ e : Fin 256, v30 (ix2 p e) * k0_pay6 (F := Ideal) v5 v18 v19 (ix2 e j) := by
  unfold k0_pay7
  rw [addf_apply, shapeCast_self, dotPlain_eq]
  exact congrArg (v28 (ix2 p j) + ·) (matmul_zero_plain_apply none v30 (k0_pay6 (F := Ideal) v5 v18 v19) p j)

theorem pay8_eq (v5 : Vec Ideal S5000x256 .f32) (v18 : Vec Ideal S256x128 .f32) (v19 : Vec Ideal S5000x128 .bf16)
    (v34 : Vec Ideal S5000x128 .f32) (p : Fin 5000) (j : Fin 128) :
    k0_pay8 (F := Ideal) v5 v18 v19 v34 (ix2 p j)
      = v34 (ix2 p j) + ∑ e : Fin 256, v5 (ix2 p e) * k0_pay6 (F := Ideal) v5 v18 v19 (ix2 e j) := by
  unfold k0_pay8
  rw [addf_apply, shapeCast_self, dotPlain_eq]
  exact congrArg (v34 (ix2 p j) + ·)
    (matmul_zero_plain_apply none (k0_pay3 (F := Ideal) v5) (k0_pay6 (F := Ideal) v5 v18 v19) p j)

theorem pay9_eq (v18 : Vec Ideal S10000x128 .f32) (i : Fin 10000) (j : Fin 128) :
    k0_pay9 (F := Ideal) v18 (ix2 i j) = Cert.Layer.leaky (v18 (ix2 i j)) := by
  unfold k0_pay9
  rw [shapeCast_self]
  exact Cert.Layer.select_ge_zero _

end Cert.KernelIdeal.Pay

end
-- ==== Proof.FinalArray.lean ====
/-
  The result array after the run.

  The result's window is the whole array at every point (block index zero on both axes, the block not cut) and is
  written back after the last point only. So the one write-back writes everything the last point left in the
  window's buffer over the whole array: the array ends holding exactly that, and the argument arrays, which no
  point writes back, end as they were.
-/
import proofs.«120358_g26250840113511_retrytranche2_1766_24_alg».proof.Proof.Carried
import Idealize.ShloMosaic.Lib.Pipeline.Value

set_option maxRecDepth 16384

noncomputable section

namespace Cert.KernelIdeal.Body

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The last point is the sixteenth. -/
theorem h15 : 15 < cfg0.N := lt_of_lt_of_eq (by decide : 15 < 16) (show 16 = cfg0.N from N_0.symm)

/-- The result's window sits at block index zero on both axes at every point. -/
theorem index2_facts : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- What a write-back writes from a buffer holding X is the window's block of X: the block is not cut, and its
    element j sits in the array at j. -/
theorem cut2_eq_read (t : Fin cfg0.N) (X : S10000x128.Idx → Elt F .f32) :
    (cfg0.win 2).cut (grid0.coords t) X = ((cfg0.win 2).blk t).view.read (Elt F) X := by
  obtain ⟨e0, e1⟩ := index2_facts t
  funext j
  show X ((cfg0.win 2).xinj (grid0.coords t) j) = X (((cfg0.win 2).blk t).view.emb j)
  refine congrArg X ?_
  funext a; apply Fin.ext
  match a with
  | ⟨0, _⟩ =>
    show (j 0).val = win0_2.index t (0 : Fin 2) * 10000 + 1 * (j 0).val
    rw [e0]; omega
  | ⟨1, _⟩ =>
    show (j 1).val = win0_2.index t (1 : Fin 2) * 128 + 1 * (j 1).val
    rw [e1]; omega

/-- An index of the array is in a point's block iff each coordinate is in the block's range on its axis. -/
theorem mem_blk2 (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- Every index of the array is in the last point's block. -/
theorem cover2 (i : S10000x128.Idx) :
    ∃ t : Fin cfg0.N, (cfg0.win 2).flush t = true ∧ i ∈ ((cfg0.win 2).blk t).view.set := by
  refine ⟨⟨15, h15⟩, (flush0_2 _).mpr rfl, ?_⟩
  rw [mem_blk2]
  obtain ⟨e0, e1⟩ := index2_facts ⟨15, h15⟩
  intro a
  match a with
  | ⟨0, _⟩ =>
    show win0_2.index ⟨15, h15⟩ (0 : Fin 2) * 10000 ≤ (i 0).val ∧ (i 0).val < win0_2.index ⟨15, h15⟩ (0 : Fin 2) * 10000 + 10000
    have hi : (i 0).val < 10000 := (i 0).isLt
    rw [e0]; omega
  | ⟨1, _⟩ =>
    show win0_2.index ⟨15, h15⟩ (1 : Fin 2) * 128 ≤ (i 1).val ∧ (i 1).val < win0_2.index ⟨15, h15⟩ (1 : Fin 2) * 128 + 128
    have hi : (i 1).val < 128 := (i 1).isLt
    rw [e1]; omega

/-- What a point that writes back writes is the window's block of what the last point left. -/
theorem flushed2_eq (c : Dev nD) (t : Fin cfg0.N) (hf : (cfg0.win 2).flush t = true) :
    (dats m 0 c).flushed 2 t = ((cfg0.win 2).blk t).view.read (Elt F) (stAt m c 15 h15).1 := by
  have ht : t.val = 15 := by have h1 := (flush0_2 t).mp hf; have h2 := lt16 t; omega
  obtain ⟨n, hn⟩ := t
  dsimp only at ht
  subst ht
  have e : (dats m 0 c).after 2 ⟨15, hn⟩ = (stAt m c 15 h15).1 := after2 m c ⟨15, hn⟩
  show (cfg0.win 2).cut (grid0.coords ⟨15, hn⟩) ((dats m 0 c).after 2 ⟨15, hn⟩) = _
  rw [e]
  generalize (stAt m c 15 h15).1 = X
  exact cut2_eq_read ⟨15, hn⟩ X

/-- The result array after the run is what the last point left in the window's buffer. -/
theorem final_array (c : Dev nD) : (dats m 0 c).arrAt 2 cfg0.N = (stAt m c 15 h15).1 :=
  (dats m 0 c).arrAt_eq_of_cover 2 (stAt m c 15 h15).1 (fun t hf => flushed2_eq m c t hf) cover2

/-- Every execution of the program terminates with the result array at what the last point left and the
    argument arrays unchanged. -/
theorem run_value : θ_run defs (onTc (τ := τ) (main (F := F))) ⟨m, fun _ => 0, ρ⟩ (fun r => ∀ c : Dev nD,
      r.2.mem ((c.tc : Thread nD τ).loc main_v0) = (stAt m c 15 h15).1
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (final_array m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Body

end
-- ==== Proof.Invariant.lean ====
/-
  The sixteen points compute the layer.  Write A and E for the two argument arrays.  After the point with r = 0 of
  column block k the kept buffers hold E, the upper half of block k of A and the upper half's part of Aᵀ·E on that
  block, and the result's buffer holds the sum over the columns before block k of A (i, e) · hid (e, j).  The point
  with r = 1 adds the lower half's part, which completes hid on the block (a sum over 10000 rows is the sum over its
  two halves), and adds the block's 256 terms to every row of the result: the sum over the columns through block k.
  After the eighth block that is the whole sum over 2048 columns, and the last point rectifies it: the layer's result.
-/
import proofs.«120358_g26250840113511_retrytranche2_1766_24_alg».proof.Proof.Steps
import proofs.«120358_g26250840113511_retrytranche2_1766_24_alg».proof.Proof.Halves
import proofs.«120358_g26250840113511_retrytranche2_1766_24_alg».proof.Proof.BlockReads
import proofs.«120358_g26250840113511_retrytranche2_1766_24_alg».proof.Proof.Payloads
import proofs.«120358_g26250840113511_retrytranche2_1766_24_alg».proof.Proof.FinalArray

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Layer Cert.KernelIdeal.Pay

variable (m : (ℓ : Loc nD τ sig) → Buf (Elt Ideal) ℓ) (c : Dev nD)

/-- The two argument arrays, as the region finds them. -/
def arrA : SA.Idx → EReal := V m c main_arg0
def arrE : SE.Idx → EReal := V m c main_arg1

theorem blkE (t : Fin cfg0.N) (i : Fin 10000) (j : Fin 128) : iblk m c 1 t (ix2 i j) = arrE m c (ix2 i j) :=
  iblk1_apply m c t i j

/-- At a point with r = 0 the block of A is the upper half of column block k; -/
theorem blk_top (t : Fin cfg0.N) (h : t.val % 2 = 0) (k : Fin 8) (hk : k.val = t.val / 2) (p : Fin 5000) (e : Fin 256) :
    iblk m c 0 t (ix2 p e) = arrA m c (ix2 (top p) (col k e)) := by
  refine (iblk0_apply m c t p e).trans ?_
  unfold arrA
  refine congrArg (V m c main_arg0) ?_
  funext a
  match a with
  | ⟨0, _⟩ => exact Fin.ext (by show 5000 * (t.val % 2) + p.val = p.val; omega)
  | ⟨1, _⟩ => exact Fin.ext (by show 256 * (t.val / 2) + e.val = 256 * k.val + e.val; rw [hk])

/-- at a point with r = 1, the lower half. -/
theorem blk_bot (t : Fin cfg0.N) (h : t.val % 2 = 1) (k : Fin 8) (hk : k.val = t.val / 2) (p : Fin 5000) (e : Fin 256) :
    iblk m c 0 t (ix2 p e) = arrA m c (ix2 (bot p) (col k e)) := by
  refine (iblk0_apply m c t p e).trans ?_
  unfold arrA
  refine congrArg (V m c main_arg0) ?_
  funext a
  match a with
  | ⟨0, _⟩ => exact Fin.ext (by show 5000 * (t.val % 2) + p.val = 5000 + p.val; omega)
  | ⟨1, _⟩ => exact Fin.ext (by show 256 * (t.val / 2) + e.val = 256 * k.val + e.val; rw [hk])

/-- The point with r = 1 of column block k adds the block's terms to every row of the result. -/
theorem add_block (k : Fin 8) (x0 : Vec Ideal S5000x256 .f32)
    (hx0 : ∀ (p : Fin 5000) (e : Fin 256), x0 (ix2 p e) = arrA m c (ix2 (bot p) (col k e))) (s : St Ideal)
    (hE : ∀ (i : Fin 10000) (j : Fin 128), s.2.1 (ix2 i j) = arrE m c (ix2 i j))
    (hA : ∀ (p : Fin 5000) (e : Fin 256), s.2.2.1 (ix2 p e) = arrA m c (ix2 (top p) (col k e)))
    (hP : ∀ (e : Fin 256) (j : Fin 128), s.2.2.2 (ix2 e j) = ∑ q : Fin 5000, arrA m c (ix2 (top q) (col k e)) * arrE m c (ix2 (top q) j))
    (hO : ∀ (i : Fin 10000) (j : Fin 128), s.1 (ix2 i j) = acc (arrA m c) (arrE m c) k.val i j)
    (i : Fin 10000) (j : Fin 128) :
    twoHalves x0 s.1 s.2.1 s.2.2.1 s.2.2.2 (ix2 i j) = acc (arrA m c) (arrE m c) (k.val + 1) i j := by
  have h6 : ∀ (e : Fin 256) (j : Fin 128),
      k0_pay6 (F := Ideal) x0 s.2.2.2 (View.ld s.2.1 Rbot) (ix2 e j) = hid (arrA m c) (arrE m c) (col k e) j := by
    intro e j
    refine (pay6_eq _ _ _ e j).trans ?_
    rw [hP e j]
    have hs : (∑ q : Fin 5000, x0 (ix2 q e) * (View.ld s.2.1 Rbot : Vec Ideal S5000x128 .bf16) (ix2 q j))
        = ∑ q : Fin 5000, arrA m c (ix2 (bot q) (col k e)) * arrE m c (ix2 (bot q) j) :=
      Finset.sum_congr rfl fun q _ => by rw [hx0 q e, ld_bot (F := Ideal) s.2.1 q j, hE]
    rw [hs]
    exact hid_halves (arrA m c) (arrE m c) k e j
  rcases row_cases i with ⟨p, rfl⟩ | ⟨p, rfl⟩
  · refine (twoHalves_top (F := Ideal) _ _ _ _ _ p j).trans ?_
    refine (pay7_eq _ _ _ _ _ p j).trans ?_
    rw [ld_top (F := Ideal) s.1 p j, hO]
    have hs : (∑ e : Fin 256, s.2.2.1 (ix2 p e) * k0_pay6 (F := Ideal) x0 s.2.2.2 (View.ld s.2.1 Rbot) (ix2 e j))
        = ∑ e : Fin 256, arrA m c (ix2 (top p) (col k e)) * hid (arrA m c) (arrE m c) (col k e) j :=
      Finset.sum_congr rfl fun e _ => by rw [hA, h6]
    rw [hs]
    exact acc_succ (arrA m c) (arrE m c) k (top p) j
  · refine (twoHalves_bot (F := Ideal) _ _ _ _ _ p j).trans ?_
    refine (pay8_eq _ _ _ _ p j).trans ?_
    rw [ld_bot (F := Ideal) s.1 p j, hO]
    have hs : (∑ e : Fin 256, x0 (ix2 p e) * k0_pay6 (F := Ideal) x0 s.2.2.2 (View.ld s.2.1 Rbot) (ix2 e j))
        = ∑ e : Fin 256, arrA m c (ix2 (bot p) (col k e)) * hid (arrA m c) (arrE m c) (col k e) j :=
      Finset.sum_congr rfl fun e _ => by rw [hx0 p e, h6]
    rw [hs]
    exact acc_succ (arrA m c) (arrE m c) k (bot p) j

/-- What holds after the point at position n. -/
structure Inv (n : ℕ) (hn : n < cfg0.N) : Prop where
  cast : ∀ (i : Fin 10000) (j : Fin 128), (stAt m c n hn).2.1 (ix2 i j) = arrE m c (ix2 i j)
  upper : n % 2 = 0 → ∀ k : Fin 8, k.val = n / 2 →
    (∀ (p : Fin 5000) (e : Fin 256), (stAt m c n hn).2.2.1 (ix2 p e) = arrA m c (ix2 (top p) (col k e)))
    ∧ (∀ (e : Fin 256) (j : Fin 128), (stAt m c n hn).2.2.2 (ix2 e j) = ∑ q : Fin 5000, arrA m c (ix2 (top q) (col k e)) * arrE m c (ix2 (top q) j))
    ∧ (∀ (i : Fin 10000) (j : Fin 128), (stAt m c n hn).1 (ix2 i j) = acc (arrA m c) (arrE m c) k.val i j)
  lower : n % 2 = 1 → n ≠ 15 → ∀ (i : Fin 10000) (j : Fin 128), (stAt m c n hn).1 (ix2 i j) = acc (arrA m c) (arrE m c) (n / 2 + 1) i j
  done : n = 15 → ∀ (i : Fin 10000) (j : Fin 128), (stAt m c n hn).1 (ix2 i j) = outAt (arrA m c) (arrE m c) i j

/-- The upper half's partial product at a point with r = 0, from the block and a cast of E. -/
theorem partial_top (k : Fin 8) (x0 : Vec Ideal S5000x256 .f32)
    (hx0 : ∀ (p : Fin 5000) (e : Fin 256), x0 (ix2 p e) = arrA m c (ix2 (top p) (col k e))) (xe : Vec Ideal S10000x128 .bf16)
    (hE : ∀ (i : Fin 10000) (j : Fin 128), xe (ix2 i j) = arrE m c (ix2 i j)) (e : Fin 256) (j : Fin 128) :
    k0_pay5 (F := Ideal) x0 (View.ld xe Rtop) (ix2 e j)
      = ∑ q : Fin 5000, arrA m c (ix2 (top q) (col k e)) * arrE m c (ix2 (top q) j) := by
  refine (pay5_eq _ _ e j).trans ?_
  exact Finset.sum_congr rfl fun q _ => by rw [hx0 q e, ld_top (F := Ideal) xe q j, hE]

theorem inv_all : ∀ (n : ℕ) (hn : n < cfg0.N), Inv m c n hn := by
  intro n
  induction n with
  | zero =>
    intro hn
    have e0 : stAt m c 0 hn = stepFirst m c ⟨0, hn⟩ rfl := rfl
    have hcast : ∀ (i : Fin 10000) (j : Fin 128), (stAt m c 0 hn).2.1 (ix2 i j) = arrE m c (ix2 i j) := fun i j => by
      rw [e0, stepFirst_E]
      exact (pay1_eq _ i j).trans (blkE m c _ i j)
    refine ⟨hcast, fun _ k hk => ⟨fun p e => ?_, fun e j => ?_, fun i j => ?_⟩, fun h => absurd h (by decide), fun h => absurd h (by decide)⟩
    · rw [e0, stepFirst_A]
      exact (pay4_eq _ p e).trans (blk_top m c ⟨0, hn⟩ rfl k hk p e)
    · rw [e0, stepFirst_P]
      exact partial_top m c k _ (blk_top m c ⟨0, hn⟩ rfl k hk) _ (fun i j => (pay1_eq _ i j).trans (blkE m c _ i j)) e j
    · rw [e0, stepFirst_O]
      have hk0 : k.val = 0 := hk
      rw [hk0, acc_zero]
      exact pay2_eq i j
  | succ n ih =>
    intro hn
    have hN : n + 1 < 16 := lt_of_lt_of_eq hn (show cfg0.N = 16 from N_0)
    have ih' := ih (Nat.lt_of_succ_lt hn)
    by_cases h1 : (n + 1) % 2 = 0
    · have es := stAt_succ_upper m c n hn h1
      have hcast : ∀ (i : Fin 10000) (j : Fin 128), (stAt m c (n + 1) hn).2.1 (ix2 i j) = arrE m c (ix2 i j) := fun i j => by
        rw [es, stepUpper_E]; exact ih'.cast i j
      refine ⟨hcast, fun _ k hk => ⟨fun p e => ?_, fun e j => ?_, fun i j => ?_⟩, fun h => absurd h (by omega), fun h => absurd h (by omega)⟩
      · rw [es, stepUpper_A]
        exact (pay4_eq _ p e).trans (blk_top m c ⟨n + 1, hn⟩ h1 k hk p e)
      · rw [es, stepUpper_P]
        exact partial_top m c k _ (blk_top m c ⟨n + 1, hn⟩ h1 k hk) _ ih'.cast e j
      · rw [es, stepUpper_O, ih'.lower (by omega) (by omega) i j]
        have : n / 2 + 1 = k.val := by rw [hk]; show n / 2 + 1 = (n + 1) / 2; omega
        rw [this]
    · by_cases h3 : (n + 1) % 16 = 15
      · have es := stAt_succ_last m c n hn h1 h3
        have hcast : ∀ (i : Fin 10000) (j : Fin 128), (stAt m c (n + 1) hn).2.1 (ix2 i j) = arrE m c (ix2 i j) := fun i j => by
          rw [es, stepLast_E]; exact ih'.cast i j
        refine ⟨hcast, fun h => absurd h h1, fun _ h => absurd (by omega) h, fun _ i j => ?_⟩
        obtain ⟨hA, hP, hO⟩ := ih'.upper (by omega) ⟨7, by decide⟩ (by show 7 = n / 2; omega)
        rw [es, stepLast_O]
        refine (pay9_eq _ i j).trans ?_
        rw [add_block m c ⟨7, by decide⟩ _ (blk_bot m c ⟨n + 1, hn⟩ (by show (n + 1) % 2 = 1; omega) ⟨7, by decide⟩ (by show 7 = (n + 1) / 2; omega)) _ ih'.cast hA hP hO i j]
        exact acc_eight (arrA m c) (arrE m c) i j
      · have es := stAt_succ_lower m c n hn h1 h3
        have hcast : ∀ (i : Fin 10000) (j : Fin 128), (stAt m c (n + 1) hn).2.1 (ix2 i j) = arrE m c (ix2 i j) := fun i j => by
          rw [es, stepLower_E]; exact ih'.cast i j
        refine ⟨hcast, fun h => absurd h h1, fun _ _ i j => ?_, fun h => absurd (by omega) h3⟩
        obtain ⟨hA, hP, hO⟩ := ih'.upper (by omega) ⟨n / 2, by omega⟩ rfl
        rw [es, stepLower_O]
        rw [add_block m c ⟨n / 2, by omega⟩ _ (blk_bot m c ⟨n + 1, hn⟩ (by show (n + 1) % 2 = 1; omega) ⟨n / 2, by omega⟩ (by show n / 2 = (n + 1) / 2; omega)) _ ih'.cast hA hP hO i j]
        have : n / 2 + 1 = (n + 1) / 2 + 1 := by omega
        exact congrArg (fun q => acc (arrA m c) (arrE m c) q i j) this

/-- After the last point the result's buffer holds the layer's result. -/
theorem last_is_out (i : Fin 10000) (j : Fin 128) :
    (stAt m c 15 h15).1 (ix2 i j) = outAt (arrA m c) (arrE m c) i j :=
  (inv_all m c 15 h15).done rfl i j

end Cert.KernelIdeal.Body

end
-- ==== Proof.RefRun.lean ====
/-
  The reference program's @main, run.

  @main is a straight line of host operations once its two calls of the rectifier are unfolded at the call sites:
  the transpose of A, the product Aᵀ · E, the rectifier's seven operations (the zero, its broadcast, the comparison
  with it, the slope, its broadcast, the product with the slope, the selection), the product of A with that, and
  the rectifier's seven again. The run of such a line ends with every buffer at the fold of the operations over
  the launch contents; read at the result buffer, the fold is the term result below of the two argument arrays.
-/
import proofs.«120358_g26250840113511_retrytranche2_1766_24_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The rectifier on an array of 2048 rows and 128 columns, as the program computes it: where x ≥ 0 (compared with
    the broadcast zero) x itself, elsewhere the broadcast slope times x. -/
def leakyHid (x : (⟨S2048x128, .f32⟩ : BufTy).Contents (Elt F)) : (⟨S2048x128, .f32⟩ : BufTy).Contents (Elt F) :=
  select (cmpf .oge x (broadcastInDim S2048x128 ![] bcast_S_S2048x128 (constant (F := F) S_ .f32 0x00000000#32))) x
    (mulf (broadcastInDim S2048x128 ![] bcast_S_S2048x128 (id (constant (F := F) S_ .f32 0x3F000000#32))) x)

/-- The same rectifier on an array of 10000 rows and 128 columns. -/
def leakyOut (x : (⟨S10000x128, .f32⟩ : BufTy).Contents (Elt F)) : (⟨S10000x128, .f32⟩ : BufTy).Contents (Elt F) :=
  select (cmpf .oge x (broadcastInDim S10000x128 ![] bcast_S_S10000x128 (constant (F := F) S_ .f32 0x00000000#32))) x
    (mulf (broadcastInDim S10000x128 ![] bcast_S_S10000x128 (id (constant (F := F) S_ .f32 0x3F000000#32))) x)

/-- The hidden array: the rectifier of Aᵀ · E. -/
def hidden (A : (⟨S10000x2048, .f32⟩ : BufTy).Contents (Elt F)) (E : (⟨S10000x128, .f32⟩ : BufTy).Contents (Elt F)) :
    (⟨S2048x128, .f32⟩ : BufTy).Contents (Elt F) :=
  leakyHid (Host.dotGeneral dot_S2048x10000_S10000x128_S2048x128_1_0_0_1_n_n none
    (transpose S2048x10000 [1, 0] A transposes_S10000x2048_S2048x10000_1_0) E)

/-- What @main leaves in its result buffer, of the two argument arrays: the rectifier of A · hidden. -/
def result (A : (⟨S10000x2048, .f32⟩ : BufTy).Contents (Elt F)) (E : (⟨S10000x128, .f32⟩ : BufTy).Contents (Elt F)) :
    (⟨S10000x128, .f32⟩ : BufTy).Contents (Elt F) :=
  leakyOut (Host.dotGeneral dot_S10000x2048_S2048x128_S10000x128_1_0_0_1_n_n none A (hidden A E))

/-- @main's nineteen operations in order, the two calls unfolded: each call of the rectifier is seven operations
    into that call's buffers (the last, the selection, into the call's result). -/
abbrev ops : List (HloOp τ sig (Elt F)) :=
  [ unary main_arg0 main_v0 ((transpose S2048x10000 [1, 0] · transposes_S10000x2048_S2048x10000_1_0) : (⟨S10000x2048, .f32⟩ : BufTy).Contents (Elt F) → (⟨S2048x10000, .f32⟩ : BufTy).Contents (Elt F)),
    binary main_v0 main_arg1 main_v1 ((fun l r => Host.dotGeneral dot_S2048x10000_S10000x128_S2048x128_1_0_0_1_n_n none l r) : (⟨S2048x10000, .f32⟩ : BufTy).Contents (Elt F) → (⟨S10000x128, .f32⟩ : BufTy).Contents (Elt F) → (⟨S2048x128, .f32⟩ : BufTy).Contents (Elt F)),
    nullary main_cst (constant S_ .f32 0x3F000000#32),
    TRef.nullary main_call0.cst (constant S_ .f32 0x00000000#32),
    TRef.unary main_call0.cst main_call0.v0 (broadcastInDim S2048x128 ![] bcast_S_S2048x128),
    TRef.binary (.of main_v1) main_call0.v0 main_call0.v1 (cmpf .oge),
    TRef.unary (.of main_cst) main_call0.v2 id,
    TRef.unary main_call0.v2 main_call0.v3 (broadcastInDim S2048x128 ![] bcast_S_S2048x128),
    TRef.binary main_call0.v3 (.of main_v1) main_call0.v4 mulf,
    TRef.ternary main_call0.v1 (.of main_v1) main_call0.v4 main_call0.call0.v0 select,
    binary main_arg0 main_v2 main_v3 ((fun l r => Host.dotGeneral dot_S10000x2048_S2048x128_S10000x128_1_0_0_1_n_n none l r) : (⟨S10000x2048, .f32⟩ : BufTy).Contents (Elt F) → (⟨S2048x128, .f32⟩ : BufTy).Contents (Elt F) → (⟨S10000x128, .f32⟩ : BufTy).Contents (Elt F)),
    nullary main_cst_0 (constant S_ .f32 0x3F000000#32),
    TRef.nullary main_call1.cst (constant S_ .f32 0x00000000#32),
    TRef.unary main_call1.cst main_call1.v0 (broadcastInDim S10000x128 ![] bcast_S_S10000x128),
    TRef.binary (.of main_v3) main_call1.v0 main_call1.v1 (cmpf .oge),
    TRef.unary (.of main_cst_0) main_call1.v2 id,
    TRef.unary main_call1.v2 main_call1.v3 (broadcastInDim S10000x128 ![] bcast_S_S10000x128),
    TRef.binary main_call1.v3 (.of main_v3) main_call1.v4 mulf,
    TRef.ternary main_call1.v1 (.of main_v3) main_call1.v4 main_call1.call0.v0 select ]

set_option maxRecDepth 1024 in
/-- @main is that line: with the functions' bodies unfolded at their calls and sequencing reassociated, both sides
    are one chain of host steps. -/
theorem main_eq (c : Dev nD) : main (F := F) c = seq ops := by
  simp only [main, fn_leaky_relu.body, fn_leaky_relu_0.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., nullary_bufs_sub ..,
    nullary_bufs_sub .., unary_bufs_sub .., binary_bufs_sub .., unary_bufs_sub .., unary_bufs_sub .., binary_bufs_sub ..,
    ternary_bufs_sub ..,
    binary_bufs_sub .., nullary_bufs_sub ..,
    nullary_bufs_sub .., unary_bufs_sub .., binary_bufs_sub .., unary_bufs_sub .., unary_bufs_sub .., binary_bufs_sub ..,
    ternary_bufs_sub ..⟩

set_option maxRecDepth 8192 in
/-- The fold read at the result buffer is result of the arguments' contents: each operation's result at the buffer
    it writes is its function's value, at any other buffer what was there, and the typed references' transports
    are the identity at these literal references. -/
theorem out_eq (V : Valuation τ sig (Elt F)) :
    after ops V (main_v4 : DevRef τ sig) = result (V (main_arg0 : DevRef τ sig)) (V (main_arg1 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-- On every device, for any float values, from any memory with zero counters: every weakly fair execution of
    @main terminates with the result buffer at result of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefValue.lean ====
/-
  The reference's result, read entry by entry, is the layer.

  At the extended reals each host product read at an index is the sum over the contracted coordinate of the products of
  the operands' entries, the transpose reads the operand with the two coordinates exchanged, a broadcast constant reads
  the constant, and the selection between x and one half of x by the comparison x ≥ 0 is the rectifier. So the hidden
  array the program computes is leaky (Aᵀ · E) and its result leaky (A · hidden), entry by entry.
-/
import proofs.«120358_g26250840113511_retrytranche2_1766_24_alg».proof.Proof.RefRun
import proofs.«120358_g26250840113511_retrytranche2_1766_24_alg».proof.Proof.LeakySpec
import Idealize.ShloMosaic.Lib.IdealHost
import Idealize.ShloMosaic.Lib.ValueLayout
import Idealize.ShloMosaic.Lib.StackMember

noncomputable section

open scoped BigOperators

namespace Cert.ReferenceIdeal.RefValue

open Cert.ReferenceIdeal Cert.ReferenceIdeal.Gen Idealize.ShloMosaic Idealize.ShloMosaic.ValueIdx
  Idealize.ShloMosaic.StackMember

/-- The first product's dimension numbers are the plain ones: rows by contraction times contraction by columns. -/
theorem dot1_eq : dot_S2048x10000_S10000x128_S2048x128_1_0_0_1_n_n = DotDims.plain 2048 10000 128 := rfl

/-- The second product's likewise. -/
theorem dot2_eq : dot_S10000x2048_S2048x128_S10000x128_1_0_0_1_n_n = DotDims.plain 10000 2048 128 := rfl

/-- The rectifier on the hidden array's shape, at an entry. -/
theorem leakyHid_apply (x : FVec Ideal S2048x128 .f32) (i : S2048x128.Idx) :
    RefRun.leakyHid (F := Ideal) x i = Cert.Layer.leaky (x i) := by
  unfold RefRun.leakyHid
  rw [select_apply, cmpf_apply, mulf_apply, broadcastInDim_scalar_apply, broadcastInDim_scalar_apply]
  exact Cert.Layer.select_ge_zero (x i)

/-- The rectifier on the result's shape, at an entry. -/
theorem leakyOut_apply (x : FVec Ideal S10000x128 .f32) (i : S10000x128.Idx) :
    RefRun.leakyOut (F := Ideal) x i = Cert.Layer.leaky (x i) := by
  unfold RefRun.leakyOut
  rw [select_apply, cmpf_apply, mulf_apply, broadcastInDim_scalar_apply, broadcastInDim_scalar_apply]
  exact Cert.Layer.select_ge_zero (x i)

/-- The hidden array at (e, j): the rectifier of the sum over n of A (n, e) · E (n, j). -/
theorem hidden_apply (A : FVec Ideal S10000x2048 .f32) (E : FVec Ideal S10000x128 .f32) (e : Fin 2048) (j : Fin 128) :
    RefRun.hidden (F := Ideal) A E (ix2 e j) = Cert.Layer.hid A E e j := by
  unfold RefRun.hidden Cert.Layer.hid
  rw [leakyHid_apply, dot1_eq, dotGeneral_plain_apply]
  refine congrArg Cert.Layer.leaky (Finset.sum_congr rfl fun n _ => ?_)
  rw [transpose_ix2_apply]

/-- The result at (i, j): the rectifier of the sum over e of A (i, e) · hidden (e, j). -/
theorem result_apply (A : FVec Ideal S10000x2048 .f32) (E : FVec Ideal S10000x128 .f32) (i : Fin 10000) (j : Fin 128) :
    RefRun.result (F := Ideal) A E (ix2 i j) = Cert.Layer.outAt A E i j := by
  unfold RefRun.result Cert.Layer.outAt
  rw [leakyOut_apply, dot2_eq, dotGeneral_plain_apply]
  refine congrArg Cert.Layer.leaky (Finset.sum_congr rfl fun e _ => ?_)
  rw [hidden_apply]

/-- The reference's result is the layer. -/
theorem result_eq (A : FVec Ideal S10000x2048 .f32) (E : FVec Ideal S10000x128 .f32) :
    (RefRun.result (F := Ideal) A E : S10000x128.Idx → EReal) = Cert.Layer.out A E := by
  funext i
  obtain ⟨p, q, rfl⟩ : ∃ (p : Fin 10000) (q : Fin 128), i = ix2 p q := ⟨i 0, i 1, eq_ix2 i⟩
  rw [result_apply, Cert.Layer.out_ix2]

end Cert.ReferenceIdeal.RefValue

end
-- ==== Proof.lean ====
/-
  The claim: a streamed kernel and a two-product reference compute the same layer.

  With A of 10000 rows by 2048 columns and E of 10000 rows by 128 columns, the reference computes
  leaky (A · leaky (Aᵀ · E)) by two whole products, the rectifier leaky being the identity on [0, +inf] and one half of
  its argument below zero.  The kernel walks the 2048 columns of A in eight blocks of 256 and each block in two halves
  of 5000 rows: from the upper half it keeps the half block and its part of Aᵀ · E on the block; from the lower half it
  completes that part of Aᵀ · E (a sum over 10000 rows is the sum over the two halves), rectifies it, and adds the
  block's 256 terms of A · hid to every row of the result it accumulates from zero; after the last block it rectifies
  the accumulated sum.  On the extended reals addition is commutative and associative, which is all the regrouping
  uses: no term is assumed finite.  A change of float format is the identity there, and a tile product into a zero
  accumulator is the plain sum, as is the reference's product.

  The three programs each run to the end without a fault and leave their argument arrays unchanged: for the kernel
  (read at the machine's words, and read at the extended reals) by running its body at each of the sixteen grid points
  from what the point before left in the result's buffer and in the three buffers the kernel keeps between points; for
  the reference by running its operations one after the other.  No operation of the kernel was rewritten to read it
  at the extended reals, so nothing is owed for that.  The results agree index by index (Proof/Invariant.lean for the
  kernel, Proof/RefValue.lean for the reference, both against Proof/LeakySpec.lean).
-/
import proofs.«120358_g26250840113511_retrytranche2_1766_24_alg».proof.Defs
import proofs.«120358_g26250840113511_retrytranche2_1766_24_alg».proof.Proof.Gen.Kernel
import proofs.«120358_g26250840113511_retrytranche2_1766_24_alg».proof.Proof.Gen.KernelIdeal
import proofs.«120358_g26250840113511_retrytranche2_1766_24_alg».proof.Proof.Gen.ReferenceIdeal
import proofs.«120358_g26250840113511_retrytranche2_1766_24_alg».proof.Proof.Gen.Pre_finite_inputs
import proofs.«120358_g26250840113511_retrytranche2_1766_24_alg».proof.Proof.KCarried
import proofs.«120358_g26250840113511_retrytranche2_1766_24_alg».proof.Proof.Invariant
import proofs.«120358_g26250840113511_retrytranche2_1766_24_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel, at the machine's words, runs and leaves its arguments unchanged. -/
theorem frame_k : Cert.frame_Kernel := fun m ρ _ => Cert.Kernel.Body.frame m ρ

/-- So does the kernel read at the extended reals. -/
theorem frame_ki : Cert.frame_KernelIdeal := fun m ρ _ => Cert.KernelIdeal.Body.frame m ρ

/-- So does the reference: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- No operation was rewritten. -/
theorem preserves : Cert.preserves_Kernel_KernelIdeal := trivial

/-- Both programs end with the layer's result of their (agreeing) arguments. -/
theorem algebraic : Cert.algebraic_KernelIdeal_ReferenceIdeal := by
  intro m ρ m' ρ' _ hagree
  refine ⟨fun c => Cert.Layer.out (Cert.KernelIdeal.Body.arrA m c) (Cert.KernelIdeal.Body.arrE m c), ?_, ?_⟩
  · refine (θ_run Cert.KernelIdeal.defs _ _).mono (fun _ h c => ⟨(h c).1.trans ?_, (h c).2⟩)
      (Cert.KernelIdeal.Body.run_value (F := Ideal) m ρ)
    funext i
    obtain ⟨p, q, rfl⟩ : ∃ (p : Fin 10000) (q : Fin 128), i = ix2 p q := ⟨i 0, i 1, eq_ix2 i⟩
    exact Cert.KernelIdeal.Body.last_is_out m c p q
  · refine (θ_run Cert.ReferenceIdeal.defs _ _).mono (fun _ h c => ⟨(h c).1.trans ?_, (h c).2⟩)
      (Cert.ReferenceIdeal.RefRun.run (F := Ideal) m' ρ')
    rw [(hagree c).1, (hagree c).2]
    exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
